-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S512x2048 : Shape := ⟨2, ![512, 2048]⟩
abbrev S512x1 : Shape := ⟨2, ![512, 1]⟩
abbrev S1x512 : Shape := ⟨2, ![1, 512]⟩
abbrev S512 : Shape := ⟨1, ![512]⟩
abbrev S512x512 : Shape := ⟨2, ![512, 512]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_24 : BitVec 32 := 0#32
  let v50 : BitVec 1 := Scalar.cmpi .ne v49 c0_i32_24
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  shapeCasts_S512_S1x512 : S512.ShapeCasts S1x512
  bitsLt_bf16_f32 : FTy.bits .bf16 < FTy.bits .f32
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  reducesTo_S4096x1_S_d0_1 : S4096x1.ReducesTo [0, 1] S_
  h_S_ : 0 < S_.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_call3_cst : Ref sig .tc := ⟨.hbm, 40, rfl⟩
abbrev main_call3_v0 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KB.Common.lean ====
/-
  What the three runs of the kernel body and the launch share.

  The grid is 8 × 8, swept row-major: point t is row block t / 8 against column block t % 8. The body branches twice on the
  column coordinate: at column block 0 it resets the two running extrema (the scratch buffers), at column block 7 it writes
  the row block's hinge into the output window. So a point is of one of three kinds — first column block, a middle one, the
  last — and the output window is idle (nothing stored, nothing written back) except at the last.
-/
import proofs.«111986_j26731876451185_1_alg».proof.Proof.Gen.Kernel.Launch
import proofs.«111986_j26731876451185_1_alg».proof.Proof.Gen.Kernel.Skeleton
import proofs.«111986_j26731876451185_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the two reshapes of the labels that precede the region, as a valuation; -/
abbrev V0 (c : Dev nD) : Valuation τ sig (Elt F) := StableHlo.after hostOps0 (fun b => m (c, b))
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof data
    whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The first `scf.if`: the column coordinate is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- The second: the column coordinate is 7. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from the last column block the output window is idle and not written back; -/
theorem idleAt_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
/-- at the last it is live. -/
theorem liveAt_4 : ∀ t : Fin cfg0.N, cond1 (grid0.coords t) → cfg0.idle 4 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The two scratch buffers: the running maximum and the running minimum. -/
abbrev scM0 : Memref sig .tc .vmem S512x1 .f32 := Memref.whole cc0_scratch0
abbrev scM1 : Memref sig .tc .vmem S512x1 .f32 := Memref.whole cc0_scratch1
/-- Views through which the contents of the output's buffer and of the scratch buffers are stated. -/
abbrev VO4 : View sig .tc .vmem S512x1 .f32 := (Memref.whole cc0_stg4_0 : Memref sig .tc .vmem S512x1 .f32).view
abbrev VS0 : View sig .tc .vmem S512x1 .f32 := scM0.view
abbrev VS1 : View sig .tc .vmem S512x1 .f32 := scM1.view

/-- The scoped rest of the region — the two scratch buffers at some contents — and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Hand

end
-- ==== Proof.KB.RunA.lean ====
/-
  The kernel body run symbolically at a point of the first column block of a row block (both running extrema reset, then joined with the tile's; nothing stored into the output window).
  The run's witness is the list of stores each scratch buffer (and the output window) ends with.
-/
import proofs.«111986_j26731876451185_1_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i)
    (x0 x1 : Vec F S512x2048 .f32) (x2 : Vec F S512x1 .i32) (x3 : Vec F S1x512 .i32) :
    Σ' (L4 : List (View.Piece (Elt F) S512x1 .f32)) (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨[], ?_, ?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KB.RunB.lean ====
/-
  The kernel body run symbolically at a point of a middle column block (the running extrema, as the point before left them, joined with the tile's; nothing stored into the output window).
  The run's witness is the list of stores each scratch buffer (and the output window) ends with.
-/
import proofs.«111986_j26731876451185_1_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i)
    (x0 x1 : Vec F S512x2048 .f32) (x2 : Vec F S512x1 .i32) (x3 : Vec F S1x512 .i32) (xs0 xs1 : Vec F S512x1 .f32) :
    Σ' (L4 : List (View.Piece (Elt F) S512x1 .f32)) (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨[], ?_, ?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KB.RunC.lean ====
/-
  The kernel body run symbolically at a point of the last column block (the running extrema joined with the tile's, then the hinge of the two stored into the output window).
  The run's witness is the list of stores each scratch buffer (and the output window) ends with.
-/
import proofs.«111986_j26731876451185_1_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i)
    (x0 x1 : Vec F S512x2048 .f32) (x2 : Vec F S512x1 .i32) (x3 : Vec F S1x512 .i32) (xs0 xs1 : Vec F S512x1 .f32) :
    Σ' (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.KB.Body.lean ====
/-
  The frame of the kernel region and the value it leaves, point by point.

  After the point at column block j of a row block, the first scratch buffer holds, row by row, the largest masked
  distance over the column blocks 0 … j and the second the smallest; the output window's block is written at column block 7
  only. `outsAt` follows the three buffers through the sweep; the proof data, the body obligation and the launch are built
  on it.
-/
import proofs.«111986_j26731876451185_1_alg».proof.Proof.KB.RunA
import proofs.«111986_j26731876451185_1_alg».proof.Proof.KB.RunB
import proofs.«111986_j26731876451185_1_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- What the point leaves in the output window's buffer: its stores read back (none away from the last column block: a placeholder nothing consults). -/
def outA4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VO4.read (Elt F) (VO4.writes (Elt F) VO4.junk (kernelRun_A c i arg2 harg2 arg3 harg3 arg4 harg4 arg5 harg5 arg6 harg6 arg7 harg7 arg8 harg8 hc0 hc1 x0 x1 x2 x3).1)
/-- The stores into the running maximum's buffer cover it, -/
theorem scoverA0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) (y : S512x1.Idx) :
    ∃ pc ∈ (kernelRun_A c i arg2 harg2 arg3 harg3 arg4 harg4 arg5 harg5 arg6 harg6 arg7 harg7 arg8 harg8 hc0 hc1 x0 x1 x2 x3).2.1, y ∈ pc.1.set :=
  View.cover_of_tiledL (kernelRun_A c i arg2 harg2 arg3 harg3 arg4 harg4 arg5 harg5 arg6 harg6 arg7 harg7 arg8 harg8 hc0 hc1 x0 x1 x2 x3).2.1 S512x1.size (by sl_kernel_rfl) y
/-- and this is what they leave there; -/
def soutA0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2 x3).2.1)
/-- likewise the running minimum's. -/
theorem scoverA1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) (y : S512x1.Idx) :
    ∃ pc ∈ (kernelRun_A c i arg2 harg2 arg3 harg3 arg4 harg4 arg5 harg5 arg6 harg6 arg7 harg7 arg8 harg8 hc0 hc1 x0 x1 x2 x3).2.2.1, y ∈ pc.1.set :=
  View.cover_of_tiledL (kernelRun_A c i arg2 harg2 arg3 harg3 arg4 harg4 arg5 harg5 arg6 harg6 arg7 harg7 arg8 harg8 hc0 hc1 x0 x1 x2 x3).2.2.1 S512x1.size (by sl_kernel_rfl) y
def soutA1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2 x3).2.2.1)

/-- What the point leaves in the output window's buffer: its stores read back (none away from the last column block: a placeholder nothing consults). -/
def outB4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VO4.read (Elt F) (VO4.writes (Elt F) VO4.junk (kernelRun_B c i arg2 harg2 arg3 harg3 arg4 harg4 arg5 harg5 arg6 harg6 arg7 harg7 arg8 harg8 hc0 hc1 x0 x1 x2 x3 xs0 xs1).1)
/-- The stores into the running maximum's buffer cover it, -/
theorem scoverB0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) (y : S512x1.Idx) :
    ∃ pc ∈ (kernelRun_B c i arg2 harg2 arg3 harg3 arg4 harg4 arg5 harg5 arg6 harg6 arg7 harg7 arg8 harg8 hc0 hc1 x0 x1 x2 x3 xs0 xs1).2.1, y ∈ pc.1.set :=
  View.cover_of_tiledL (kernelRun_B c i arg2 harg2 arg3 harg3 arg4 harg4 arg5 harg5 arg6 harg6 arg7 harg7 arg8 harg8 hc0 hc1 x0 x1 x2 x3 xs0 xs1).2.1 S512x1.size (by sl_kernel_rfl) y
/-- and this is what they leave there; -/
def soutB0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 x3 xs0 xs1).2.1)
/-- likewise the running minimum's. -/
theorem scoverB1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) (y : S512x1.Idx) :
    ∃ pc ∈ (kernelRun_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_B c i arg2 harg2 arg3 harg3 arg4 harg4 arg5 harg5 arg6 harg6 arg7 harg7 arg8 harg8 hc0 hc1 x0 x1 x2 x3 xs0 xs1).2.2.1 S512x1.size (by sl_kernel_rfl) y
def soutB1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 x3 xs0 xs1).2.2.1)

/-- At the last column block the one store into the output window covers it. -/
theorem coverC4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).1, y ∈ pc.1.set :=
  View.cover_of_tiledL (kernelRun_C c i arg2 harg2 arg3 harg3 arg4 harg4 arg5 harg5 arg6 harg6 arg7 harg7 arg8 harg8 hc0 hc1 x0 x1 x2 x3 xs0 xs1).1 S512x1.size (by sl_kernel_rfl) y
/-- What the point leaves in the output window's buffer: its stores read back (none away from the last column block: a placeholder nothing consults). -/
def outC4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VO4.read (Elt F) (VO4.writes (Elt F) VO4.junk (kernelRun_C c i arg2 harg2 arg3 harg3 arg4 harg4 arg5 harg5 arg6 harg6 arg7 harg7 arg8 harg8 hc0 hc1 x0 x1 x2 x3 xs0 xs1).1)
/-- The stores into the running maximum's buffer cover it, -/
theorem scoverC0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.1 S512x1.size (by sl_kernel_rfl) y
/-- and this is what they leave there; -/
def soutC0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 x3 xs0 xs1).2.1)
/-- likewise the running minimum's. -/
theorem scoverC1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.2.1 S512x1.size (by sl_kernel_rfl) y
def soutC1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 x3 xs0 xs1).2.2.1)

/-! ## The three buffers after each point -/

/-- What the output window's buffer, the running maximum and the running minimum hold after the body at position `n`:
    the point's kind run at its memrefs and input blocks, a middle or last point over what the point before left. -/
def outsAt (c : Dev nD) : (n : ℕ) → n < cfg0.N → Vec F S512x1 .f32 × Vec F S512x1 .f32 × Vec F S512x1 .f32
  | 0, hn => (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), soutA0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), soutA1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), soutA0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), soutA1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outC4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutC0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutC1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutB0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutB1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (outA4 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t), soutA0 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t), soutA1 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (outB4 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutB0 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutB1 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC4 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutC0 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutC1 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The proof data on core `c`: the arrays as the region finds them; after the body each input's buffer at its block and
    the output's at `outsAt`'s first component; the invariant `PhiS`; nothing owed. The two windows on the points' array
    hold one half of it each, the label windows and the output theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  unfold Dat.leavesExact; rw [liveAt_0 t, after_0]
theorem leaves_1 (c : Dev nD) (t : Fin cfg0.N) : (dats m 0 c).leavesExact 1 t = owns (c : Thread nD τ) (ms1 t) fullShare (iblk m c 1 t) := by
  unfold Dat.leavesExact; rw [liveAt_1 t, after_1]
theorem leaves_2 (c : Dev nD) (t : Fin cfg0.N) : (dats m 0 c).leavesExact 2 t = owns (c : Thread nD τ) (ms2 t) fullShare (iblk m c 2 t) := by
  unfold Dat.leavesExact; rw [liveAt_2 t, after_2]
theorem leaves_3 (c : Dev nD) (t : Fin cfg0.N) : (dats m 0 c).leavesExact 3 t = owns (c : Thread nD τ) (ms3 t) fullShare (iblk m c 3 t) := by
  unfold Dat.leavesExact; rw [liveAt_3 t, after_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 64 := lt_of_lt_of_eq t.isLt (show cfg0.N = 64 from N_0)
  by_cases h0 : t.val % 8 = 0
  · have h1 : ¬ t.val % 8 = 7 := by omega
    rw [Dat.leavesExact_idle (dats m 0 c) 4 t (idleAt_4 t (fun h => h1 ((hcond1 t).mp h))) (noFlush_4 t (fun h => h1 ((hcond1 t).mp h)))]
    rw [outsAt_A m c t h0 h1]
    unfold soutA0 soutA1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun_A c (grid0.coords t) _ _ _ _ _ _ _ _ _ _ _ _ _ _ ((hcond0 t).mpr h0) (fun h => h1 ((hcond1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_A c (grid0.coords t) _ _ _ _ _ _ _ _ _ _ _ _ _ _ ((hcond0 t).mpr h0) (fun h => h1 ((hcond1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [liveAt_4 t ((hcond1 t).mpr h1)], after_4]
      rw [outsAt_C m c t h0 h1]
      unfold outC4 soutC0 soutC1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ _ _ (fun h => h0 ((hcond0 t).mp h)) ((hcond1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC0 c _ _ _ _ _ _ _ _ _ _ _ _ _ _ _ _ _ _ _ _ _ _ _)
          · unfold owns; iexists _; isplitr
            swap; · iexact HS1
            ipureintro; exact View.read_writes_of_cover _ _ _ _ _ (scoverC1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC4 c _ _ _ _ _ _ _ _ _ _ _ _ _ _ _ _ _ _ _ _ _ _ _)
    · rw [Dat.leavesExact_idle (dats m 0 c) 4 t (idleAt_4 t (fun h => h1 ((hcond1 t).mp h))) (noFlush_4 t (fun h => h1 ((hcond1 t).mp h)))]
      rw [outsAt_B m c t h0 h1]
      unfold soutB0 soutB1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ _ _ (fun h => h0 ((hcond0 t).mp h)) (fun h => h1 ((hcond1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB0 c _ _ _ _ _ _ _ _ _ _ _ _ _ _ _ _ _ _ _ _ _ _ _)
          · unfold owns; iexists _; isplitr
            swap; · iexact HS1
            ipureintro; exact View.read_writes_of_cover _ _ _ _ _ (scoverB1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1⟩, Hg⟩
  isplitl [HS0 HS1]
  · isplitl [HS0]
    · iexists _; iexact HS0
    · iexists _; iexact HS1
  iexact Hg

end Cert.Kernel.Hand

end
-- ==== Proof.KB.Region.lean ====
/-
  The launch: @main as two label reshapes, the kernel region, and the mean over the region's result.

  Between the segments core c holds every unscoped buffer whole at a known valuation, the generator register and what it
  owes (nothing). Entering the region, the points array — read by two windows — is dealt to them one half each; leaving it,
  the two halves make the whole again and the result array stands at what the write-backs left. The run's post names every
  unscoped buffer's final contents; the frame and the value are read off it.
-/
import proofs.«111986_j26731876451185_1_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

/-! ## The fixed parameters of the launch -/

abbrev EP : Emb (UR sig nD τ) (MT nD τ sig Unit (Elt F) ℕ (UR sig nD τ) ℕ) := emb₁
abbrev Lp : GSem nD τ sig → Finset Unit := fun _ => ∅
abbrev lvp : GSem nD τ sig → Unit → ℕ := fun _ _ => 0
abbrev adm : (p : Fin 1) → (pcfgs (F := F) p).Adm := fun p => (cfgs p).toPCfg_adm
abbrev 𝒱₀ : Variants := Variants.none

/-- Core `c`'s buffers at launch, as a valuation. -/
abbrev Vl (c : Dev nD) : Valuation τ sig (Elt F) := fun b => m (c, b)

/-- What rides beside the buffers: the generator register at some state and the core owing nothing. -/
abbrev Rr (c : Dev nD) : sProp 𝕄 := iprop((∃ r, prngReg c r) ∗ ∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The buffers after the region: the result array at what the write-backs left, every other buffer as the region found it. -/
def W1 (c : Dev nD) : Valuation τ sig (Elt F) :=
  Function.update (V0 m c) (Proc.devRef .tc main_v2) ((dats m 0 c).arrAt 4 cfg0.N)

/-! ## The unscoped buffers and the windows' arrays, one by one -/

theorem unscopedBufs_list (c : Dev nD) (Vv : (b : Ref sig .tc) → Buf (Elt F) ((c : Thread nD τ).loc b)) :
    (unscopedBufs (Ix := Unit) (Name := ℕ) (U := UR sig nD τ) (Lvl := ℕ) c Vv : sProp 𝕄)
      = iprop((((c : Thread nD τ).loc main_arg0) ↦{fullShare} Vv main_arg0) ∗ (((c : Thread nD τ).loc main_arg1) ↦{fullShare} Vv main_arg1)
        ∗ (((c : Thread nD τ).loc main_v0) ↦{fullShare} Vv main_v0) ∗ (((c : Thread nD τ).loc main_v1) ↦{fullShare} Vv main_v1)
        ∗ (((c : Thread nD τ).loc main_v2) ↦{fullShare} Vv main_v2) ∗ (((c : Thread nD τ).loc main_cst) ↦{fullShare} Vv main_cst)
        ∗ (((c : Thread nD τ).loc main_v3) ↦{fullShare} Vv main_v3) ∗ (((c : Thread nD τ).loc main_cst_0) ↦{fullShare} Vv main_cst_0)
        ∗ (((c : Thread nD τ).loc main_v4) ↦{fullShare} Vv main_v4)) := by
  unfold unscopedBufs
  exact bigSep_eq_bigSepL_of_eq [main_arg0, main_arg1, main_v0, main_v1, main_v2, main_cst, main_v3, main_cst_0, main_v4] (by decide) (by decide) _

theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
        ∗ (((c : Thread nD τ).loc main_v0) ↦{fullShare} G 2) ∗ (((c : Thread nD τ).loc main_v1) ↦{fullShare} G 3)
        ∗ (((c : Thread nD τ).loc main_v2) ↦{fullShare} G 4)) := by
  unfold Dat.arrays
  rw [bigSep_W0]
  rw [show (cfg0.win 0).arr.view.set = Finset.univ from (arr_whole0 0).set_eq_univ, show (cfg0.win 2).arr.view.set = Finset.univ from (arr_whole0 2).set_eq_univ,
    show (cfg0.win 3).arr.view.set = Finset.univ from (arr_whole0 3).set_eq_univ, show (cfg0.win 4).arr.view.set = Finset.univ from (arr_whole0 4).set_eq_univ]
  rfl

theorem W1_v2 (c : Dev nD) : W1 m c (Proc.devRef .tc main_v2) = (dats m 0 c).arrAt 4 cfg0.N := by
  unfold W1; exact Function.update_self _ _ _
theorem W1_ne (c : Dev nD) (b : Ref sig .tc) (h : b ≠ main_v2) : W1 m c (Proc.devRef .tc b) = V m c b := by
  unfold W1; exact Function.update_of_ne (StableHlo.devRef_ne_of_ne h) _ _

/-- An input window's array stands after the run where the region found it. -/
theorem arrAt_in_0 (c : Dev nD) : (dats m 0 c).arrAt 0 cfg0.N = V m c main_arg0 := ((dats m 0 c).arrAt_in 0 rfl _).trans (A_eq m c 0)
theorem arrAt_in_1 (c : Dev nD) : (dats m 0 c).arrAt 1 cfg0.N = V m c main_arg0 := ((dats m 0 c).arrAt_in 1 rfl _).trans (A_eq m c 1)
theorem arrAt_in_2 (c : Dev nD) : (dats m 0 c).arrAt 2 cfg0.N = V m c main_v0 := ((dats m 0 c).arrAt_in 2 rfl _).trans (A_eq m c 2)
theorem arrAt_in_3 (c : Dev nD) : (dats m 0 c).arrAt 3 cfg0.N = V m c main_v1 := ((dats m 0 c).arrAt_in 3 rfl _).trans (A_eq m c 3)

/-! ## The segments -/

/-- The two reshapes before the region, over the unscoped buffers. -/
def seg0 : Pipeline.HostSeg (Name := ℕ) (U := UR sig nD τ) (pcfgs (F := F)) defs₀ 𝒱₀ Lp lvp :=
  Pipeline.HostSeg.ofOps _ _ _ _ _ (Pipeline.ucRefs τ sig) hostOps0
    (fun op h => Pipeline.sub_ucRefs op ((List.forall_iff_forall_mem.mp hostOps0_sub) op h)) fresh0 (Vl m) Rr

/-- The sum and the division after it. -/
def seg1 : Pipeline.HostSeg (Name := ℕ) (U := UR sig nD τ) (pcfgs (F := F)) defs₀ 𝒱₀ Lp lvp :=
  Pipeline.HostSeg.ofOps _ _ _ _ _ (Pipeline.ucRefs τ sig) hostOps1
    (fun op h => Pipeline.sub_ucRefs op ((List.forall_iff_forall_mem.mp hostOps1_sub) op h)) fresh1 (W1 m) Rr

/-- The region. -/
def reg0 : Pipeline.RegionSeg (pcfgs (F := F)) adm (dats m) () defs₀ 𝒱₀ Lp lvp 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lp lvp 0 fun _ _ => rfl
  pre c := iprop(StableHlo.held (c : Thread nD τ) (Pipeline.ucRefs τ sig) (StableHlo.after hostOps0 (Vl m c)) ∗ Rr c)
  post c := iprop(StableHlo.held (c : Thread nD τ) (Pipeline.ucRefs τ sig) (W1 m c) ∗ Rr c)
  X c := iprop(∃ r, prngReg c r)
  Y c := iprop(∃ r, prngReg c r)
  Z c := iprop((((c : Thread nD τ).loc main_arg1) ↦{fullShare} V m c main_arg1) ∗ (((c : Thread nD τ).loc main_cst) ↦{fullShare} V m c main_cst)
    ∗ (((c : Thread nD τ).loc main_v3) ↦{fullShare} V m c main_v3) ∗ (((c : Thread nD τ).loc main_cst_0) ↦{fullShare} V m c main_cst_0)
    ∗ (((c : Thread nD τ).loc main_v4) ↦{fullShare} V m c main_v4))
  hentry c := by
    rw [show StableHlo.held (c : Thread nD τ) (Pipeline.ucRefs τ sig) (StableHlo.after hostOps0 (Vl m c)) = unscopedBufs c (V m c) from (Pipeline.unscopedBufs_held c _).symm,
      unscopedBufs_list, arrays_list]
    iintro ⟨⟨⟨Ha0, Ha1, Hv0, Hv1, Hv2, Hc, Hv3, Hc0, Hv4⟩, Hp, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Hc]; · iexact Hc
    isplitl [Hv3]; · iexact Hv3
    isplitl [Hc0]; · iexact Hc0
    iexact Hv4
  hin c := by
    refine (show _ ⊢ (Pipeline.ΦA spec0 c : sProp 𝕄) from ?_).trans (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [arrays_list, show StableHlo.held (c : Thread nD τ) (Pipeline.ucRefs τ sig) (W1 m c) = unscopedBufs c (fun b => W1 m c b) from (Pipeline.unscopedBufs_held c _).symm,
      unscopedBufs_list]
    rw [arrAt_in_0, arrAt_in_1, arrAt_in_2, arrAt_in_3, W1_v2, W1_ne m c main_arg0 (by decide), W1_ne m c main_arg1 (by decide), W1_ne m c main_v0 (by decide),
      W1_ne m c main_v1 (by decide), W1_ne m c main_cst (by decide), W1_ne m c main_v3 (by decide), W1_ne m c main_cst_0 (by decide), W1_ne m c main_v4 (by decide)]
    iintro ⟨⟨Hl, Hr, Hv0, Hv1, Hv2⟩, HO, Hp, ⟨Ha1, Hc, Hv3, Hc0, Hv4⟩⟩
    ihave Ha0 := (pointsTo_share (PosShare.mem_left_op_right fullShare)).2 $$ [Hl Hr]
    · isplitl [Hl] <;> iassumption
    imodintro
    isplitr [HO Hp]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    · isplitl [Hp]; · iexact Hp
      unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lp lvp) := [.host (seg0 m), .region (reg0 m), .host (seg1 m)]

/-- The launch element: the pipeline library's at the staging cells. -/
def u₀ : UR sig nD τ := initOf (Pipeline.cells cfgs cellOf_inj) (Pipeline.launchToks cfgs cellOf_inj)

/-- Core `c`'s buffers when @main returns. -/
abbrev Wend (c : Dev nD) : Valuation τ sig (Elt F) := StableHlo.after hostOps1 (W1 m c)

/-- The post of the run: every unscoped buffer of every core at its final contents. -/
def QC : PUnit × MemSt nD τ sig (Elt F) → Prop := fun r =>
  ∀ c : Dev nD, ∀ b ∈ (Finset.univ.filter fun b : Ref sig .tc => ¬ b.isScoped), r.2.mem ((c : Thread nD τ).loc b) = Wend m c (Proc.devRef .tc b)

/-- At the compiled mesh, for any float values, from any memory with zero counters: every weakly fair execution of @main on
    the TensorCores terminates, nothing faulting, and every final state has each unscoped buffer at `Wend`. -/
theorem run_main : θ_run defs (onTc (τ := τ) (main (F := F))) (s₀ m ρ) (QC m) :=
  Pipeline.θ_run_regions_kit (pcfgs (F := F)) adm (dats m) () cellOf_inj EP defs₀ 𝒱₀ Lp lvp m ρ main (segs m)
    (fun c Q => by rw [main_segs adm (dats m) () 𝒱₀ Lp lvp (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (Wend m c) ∗ ∃ r, prngReg c r))
    (hch := ⟨fun _ => .rfl, fun _ => .rfl, fun _ => .rfl, fun c => (show iprop(StableHlo.held (c : Thread nD τ) (Pipeline.ucRefs τ sig) (Wend m c) ∗ Rr c) ⊢ _ from by
      iintro ⟨Hh, Hp, HO⟩
      isplitl [Hh Hp]
      · isplitl [Hh] <;> iassumption
      iexact HO)⟩)
    (hinit := by
      refine Pipeline.initEach Lp lvp fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c b) from (Pipeline.unscopedBufs_held c _).symm]
      unfold unscopedBufs
      iintro ⟨⟨Hh, -⟩, HSI⟩
      imodintro
      iapply (pointsTo_read_all (Finset.univ.filter fun b : Ref sig .tc => ¬ b.isScoped) (fun b => (c : Thread nD τ).loc b) (fun b => Wend m c (Proc.devRef .tc b)) s')
      isplitl [Hh] <;> iassumption)
    (hQ := fun _ h => h)

end Cert.Kernel.Hand

end
-- ==== Proof.KB.End.lean ====
/-
  What the run leaves in the argument arrays and in the result, read off the final valuation.

  Neither the two reshapes before the region nor the sum and the division after it write an argument array, and the region
  only reads them: both end as launched. The result is the division by 4096 of the sum of the region's output array.
-/
import proofs.«111986_j26731876451185_1_alg».proof.Proof.KB.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation before the region writes a buffer other than the two reshaped label arrays; -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, StableHlo.unary_writes, StableHlo.binary_writes, StableHlo.nullary_writes, Finset.mem_singleton] <;>
    exact StableHlo.devRef_ne_of_ne ‹_›

/-- and none after it one other than the two constants, the sum and the quotient. -/
theorem not_written1 (b : Ref sig .tc) (hb : b ≠ main_cst ∧ b ≠ main_v3 ∧ b ≠ main_cst_0 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, StableHlo.unary_writes, StableHlo.binary_writes, StableHlo.nullary_writes, Finset.mem_singleton] <;>
    exact StableHlo.devRef_ne_of_ne ‹_›

theorem entry_arg0 (c : Dev nD) : V m c main_arg0 = m ((c : Thread nD τ).loc main_arg0) :=
  StableHlo.after_of_forall_not_mem (b := Proc.devRef .tc main_arg0) hostOps0 (Vl m c) (not_written0 main_arg0 (by decide))
theorem entry_arg1 (c : Dev nD) : V m c main_arg1 = m ((c : Thread nD τ).loc main_arg1) :=
  StableHlo.after_of_forall_not_mem (b := Proc.devRef .tc main_arg1) hostOps0 (Vl m c) (not_written0 main_arg1 (by decide))

/-- The points end as launched; -/
theorem Wend_arg0 (c : Dev nD) : Wend m c (Proc.devRef .tc main_arg0) = m ((c : Thread nD τ).loc main_arg0) :=
  (StableHlo.after_of_forall_not_mem (b := Proc.devRef .tc main_arg0) hostOps1 (W1 m c) (not_written1 main_arg0 (by decide))).trans
    ((W1_ne m c main_arg0 (by decide)).trans (entry_arg0 m c))
/-- so do the labels. -/
theorem Wend_arg1 (c : Dev nD) : Wend m c (Proc.devRef .tc main_arg1) = m ((c : Thread nD τ).loc main_arg1) :=
  (StableHlo.after_of_forall_not_mem (b := Proc.devRef .tc main_arg1) hostOps1 (W1 m c) (not_written1 main_arg1 (by decide))).trans
    ((W1_ne m c main_arg1 (by decide)).trans (entry_arg1 m c))

/-- The result is the quotient by the count of the sum, from zero, of the region's output array. -/
theorem Wend_v4 (c : Dev nD) : Wend m c (Proc.devRef .tc main_v4)
    = Host.divf (Host.reduceAdd ((dats m 0 c).arrAt 4 cfg0.N : (⟨S4096x1, .f32⟩ : BufTy).Contents (Elt F)) (constant S_ .f32 0x00000000#32) reducesTo_S4096x1_S_d0_1 h_S_) (constant S_ .f32 0x45800000#32) := by
  rw [← W1_v2 m c]
  show StableHlo.after hostOps1 (W1 m c) (Proc.devRef .tc main_v4) = _
  after_results

/-- THE FRAME: every weakly fair execution terminates, nothing faulting, both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0 (Finset.mem_filter.mpr ⟨Finset.mem_univ _, by decide⟩)).trans (Wend_arg0 m c),
     (h c main_arg1 (Finset.mem_filter.mpr ⟨Finset.mem_univ _, by decide⟩)).trans (Wend_arg1 m c)⟩) (run_main m ρ)

end Cert.Kernel.Hand

end
-- ==== Proof.KI.Common.lean ====
/-
  What the three runs of the kernel body and the launch share.

  The grid is 8 × 8, swept row-major: point t is row block t / 8 against column block t % 8. The body branches twice on the
  column coordinate: at column block 0 it resets the two running extrema (the scratch buffers), at column block 7 it writes
  the row block's hinge into the output window. So a point is of one of three kinds — first column block, a middle one, the
  last — and the output window is idle (nothing stored, nothing written back) except at the last.
-/
import proofs.«111986_j26731876451185_1_alg».proof.Proof.Gen.KernelIdeal.Launch
import proofs.«111986_j26731876451185_1_alg».proof.Proof.Gen.KernelIdeal.Skeleton
import proofs.«111986_j26731876451185_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the two reshapes of the labels that precede the region, as a valuation; -/
abbrev V0 (c : Dev nD) : Valuation τ sig (Elt F) := StableHlo.after hostOps0 (fun b => m (c, b))
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof data
    whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The first `scf.if`: the column coordinate is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- The second: the column coordinate is 7. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from the last column block the output window is idle and not written back; -/
theorem idleAt_4 : ∀ t : Fin cfg0.N, ¬cond1 (grid0.coords t) → cfg0.idle 4 (grid0.coords t) = true := by decide +kernel
theorem noFlush_4 : ∀ t : Fin cfg0.N, ¬cond1 (grid0.coords t) → (cfg0.win 4).flush t = false := by decide +kernel
/-- at the last it is live. -/
theorem liveAt_4 : ∀ t : Fin cfg0.N, cond1 (grid0.coords t) → cfg0.idle 4 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The two scratch buffers: the running maximum and the running minimum. -/
abbrev scM0 : Memref sig .tc .vmem S512x1 .f32 := Memref.whole cc0_scratch0
abbrev scM1 : Memref sig .tc .vmem S512x1 .f32 := Memref.whole cc0_scratch1
/-- Views through which the contents of the output's buffer and of the scratch buffers are stated. -/
abbrev VO4 : View sig .tc .vmem S512x1 .f32 := (Memref.whole cc0_stg4_0 : Memref sig .tc .vmem S512x1 .f32).view
abbrev VS0 : View sig .tc .vmem S512x1 .f32 := scM0.view
abbrev VS1 : View sig .tc .vmem S512x1 .f32 := scM1.view

/-- The scoped rest of the region — the two scratch buffers at some contents — and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Hand

end
-- ==== Proof.KI.RunA.lean ====
/-
  The kernel body run symbolically at a point of the first column block of a row block (both running extrema reset, then joined with the tile's; nothing stored into the output window).
  The run's witness is the list of stores each scratch buffer (and the output window) ends with.
-/
import proofs.«111986_j26731876451185_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i)
    (x0 x1 : Vec F S512x2048 .f32) (x2 : Vec F S512x1 .i32) (x3 : Vec F S1x512 .i32) :
    Σ' (L4 : List (View.Piece (Elt F) S512x1 .f32)) (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨[], ?_, ?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.RunB.lean ====
/-
  The kernel body run symbolically at a point of a middle column block (the running extrema, as the point before left them, joined with the tile's; nothing stored into the output window).
  The run's witness is the list of stores each scratch buffer (and the output window) ends with.
-/
import proofs.«111986_j26731876451185_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i)
    (x0 x1 : Vec F S512x2048 .f32) (x2 : Vec F S512x1 .i32) (x3 : Vec F S1x512 .i32) (xs0 xs1 : Vec F S512x1 .f32) :
    Σ' (L4 : List (View.Piece (Elt F) S512x1 .f32)) (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨[], ?_, ?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.RunC.lean ====
/-
  The kernel body run symbolically at a point of the last column block (the running extrema joined with the tile's, then the hinge of the two stored into the output window).
  The run's witness is the list of stores each scratch buffer (and the output window) ends with.
-/
import proofs.«111986_j26731876451185_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the four input windows' at their blocks, the output window's, the two scratch buffers —
    the body runs to the continuation holding the inputs as they were and each scratch buffer with its stores written. -/
noncomputable def kernelRun_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i)
    (x0 x1 : Vec F S512x2048 .f32) (x2 : Vec F S512x1 .i32) (x3 : Vec F S1x512 .i32) (xs0 xs1 : Vec F S512x1 .f32) :
    Σ' (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8) K } := by
  refine ⟨?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Body.lean ====
/-
  The frame of the kernel region and the value it leaves, point by point.

  After the point at column block j of a row block, the first scratch buffer holds, row by row, the largest masked
  distance over the column blocks 0 … j and the second the smallest; the output window's block is written at column block 7
  only. `outsAt` follows the three buffers through the sweep; the proof data, the body obligation and the launch are built
  on it.
-/
import proofs.«111986_j26731876451185_1_alg».proof.Proof.KI.RunA
import proofs.«111986_j26731876451185_1_alg».proof.Proof.KI.RunB
import proofs.«111986_j26731876451185_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- What the point leaves in the output window's buffer: its stores read back (none away from the last column block: a placeholder nothing consults). -/
def outA4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VO4.read (Elt F) (VO4.writes (Elt F) VO4.junk (kernelRun_A c i arg2 harg2 arg3 harg3 arg4 harg4 arg5 harg5 arg6 harg6 arg7 harg7 arg8 harg8 hc0 hc1 x0 x1 x2 x3).1)
/-- The stores into the running maximum's buffer cover it, -/
theorem scoverA0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) (y : S512x1.Idx) :
    ∃ pc ∈ (kernelRun_A c i arg2 harg2 arg3 harg3 arg4 harg4 arg5 harg5 arg6 harg6 arg7 harg7 arg8 harg8 hc0 hc1 x0 x1 x2 x3).2.1, y ∈ pc.1.set :=
  View.cover_of_tiledL (kernelRun_A c i arg2 harg2 arg3 harg3 arg4 harg4 arg5 harg5 arg6 harg6 arg7 harg7 arg8 harg8 hc0 hc1 x0 x1 x2 x3).2.1 S512x1.size (by sl_kernel_rfl) y
/-- and this is what they leave there; -/
def soutA0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2 x3).2.1)
/-- likewise the running minimum's. -/
theorem scoverA1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) (y : S512x1.Idx) :
    ∃ pc ∈ (kernelRun_A c i arg2 harg2 arg3 harg3 arg4 harg4 arg5 harg5 arg6 harg6 arg7 harg7 arg8 harg8 hc0 hc1 x0 x1 x2 x3).2.2.1, y ∈ pc.1.set :=
  View.cover_of_tiledL (kernelRun_A c i arg2 harg2 arg3 harg3 arg4 harg4 arg5 harg5 arg6 harg6 arg7 harg7 arg8 harg8 hc0 hc1 x0 x1 x2 x3).2.2.1 S512x1.size (by sl_kernel_rfl) y
def soutA1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2 x3).2.2.1)

/-- What the point leaves in the output window's buffer: its stores read back (none away from the last column block: a placeholder nothing consults). -/
def outB4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VO4.read (Elt F) (VO4.writes (Elt F) VO4.junk (kernelRun_B c i arg2 harg2 arg3 harg3 arg4 harg4 arg5 harg5 arg6 harg6 arg7 harg7 arg8 harg8 hc0 hc1 x0 x1 x2 x3 xs0 xs1).1)
/-- The stores into the running maximum's buffer cover it, -/
theorem scoverB0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) (y : S512x1.Idx) :
    ∃ pc ∈ (kernelRun_B c i arg2 harg2 arg3 harg3 arg4 harg4 arg5 harg5 arg6 harg6 arg7 harg7 arg8 harg8 hc0 hc1 x0 x1 x2 x3 xs0 xs1).2.1, y ∈ pc.1.set :=
  View.cover_of_tiledL (kernelRun_B c i arg2 harg2 arg3 harg3 arg4 harg4 arg5 harg5 arg6 harg6 arg7 harg7 arg8 harg8 hc0 hc1 x0 x1 x2 x3 xs0 xs1).2.1 S512x1.size (by sl_kernel_rfl) y
/-- and this is what they leave there; -/
def soutB0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 x3 xs0 xs1).2.1)
/-- likewise the running minimum's. -/
theorem scoverB1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) (y : S512x1.Idx) :
    ∃ pc ∈ (kernelRun_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_B c i arg2 harg2 arg3 harg3 arg4 harg4 arg5 harg5 arg6 harg6 arg7 harg7 arg8 harg8 hc0 hc1 x0 x1 x2 x3 xs0 xs1).2.2.1 S512x1.size (by sl_kernel_rfl) y
def soutB1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 x3 xs0 xs1).2.2.1)

/-- At the last column block the one store into the output window covers it. -/
theorem coverC4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).1, y ∈ pc.1.set :=
  View.cover_of_tiledL (kernelRun_C c i arg2 harg2 arg3 harg3 arg4 harg4 arg5 harg5 arg6 harg6 arg7 harg7 arg8 harg8 hc0 hc1 x0 x1 x2 x3 xs0 xs1).1 S512x1.size (by sl_kernel_rfl) y
/-- What the point leaves in the output window's buffer: its stores read back (none away from the last column block: a placeholder nothing consults). -/
def outC4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VO4.read (Elt F) (VO4.writes (Elt F) VO4.junk (kernelRun_C c i arg2 harg2 arg3 harg3 arg4 harg4 arg5 harg5 arg6 harg6 arg7 harg7 arg8 harg8 hc0 hc1 x0 x1 x2 x3 xs0 xs1).1)
/-- The stores into the running maximum's buffer cover it, -/
theorem scoverC0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.1 S512x1.size (by sl_kernel_rfl) y
/-- and this is what they leave there; -/
def soutC0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 x3 xs0 xs1).2.1)
/-- likewise the running minimum's. -/
theorem scoverC1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) (y : S512x1.Idx) :
    ∃ pc ∈ (kernelRun_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.2.1 S512x1.size (by sl_kernel_rfl) y
def soutC1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 x3 xs0 xs1).2.2.1)

/-! ## The three buffers after each point -/

/-- What the output window's buffer, the running maximum and the running minimum hold after the body at position `n`:
    the point's kind run at its memrefs and input blocks, a middle or last point over what the point before left. -/
def outsAt (c : Dev nD) : (n : ℕ) → n < cfg0.N → Vec F S512x1 .f32 × Vec F S512x1 .f32 × Vec F S512x1 .f32
  | 0, hn => (outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), soutA0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), soutA1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), soutA0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), soutA1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (outC4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutC0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutC1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutB0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, soutB1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (outA4 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t), soutA0 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t), soutA1 c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (outB4 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutB0 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutB1 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (outC4 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutC0 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, soutC1 c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The proof data on core `c`: the arrays as the region finds them; after the body each input's buffer at its block and
    the output's at `outsAt`'s first component; the invariant `PhiS`; nothing owed. The two windows on the points' array
    hold one half of it each, the label windows and the output theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (ms0 t) fullShare (iblk m c 0 t) := by
  unfold Dat.leavesExact; rw [liveAt_0 t, after_0]
theorem leaves_1 (c : Dev nD) (t : Fin cfg0.N) : (dats m 0 c).leavesExact 1 t = owns (c : Thread nD τ) (ms1 t) fullShare (iblk m c 1 t) := by
  unfold Dat.leavesExact; rw [liveAt_1 t, after_1]
theorem leaves_2 (c : Dev nD) (t : Fin cfg0.N) : (dats m 0 c).leavesExact 2 t = owns (c : Thread nD τ) (ms2 t) fullShare (iblk m c 2 t) := by
  unfold Dat.leavesExact; rw [liveAt_2 t, after_2]
theorem leaves_3 (c : Dev nD) (t : Fin cfg0.N) : (dats m 0 c).leavesExact 3 t = owns (c : Thread nD τ) (ms3 t) fullShare (iblk m c 3 t) := by
  unfold Dat.leavesExact; rw [liveAt_3 t, after_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 64 := lt_of_lt_of_eq t.isLt (show cfg0.N = 64 from N_0)
  by_cases h0 : t.val % 8 = 0
  · have h1 : ¬ t.val % 8 = 7 := by omega
    rw [Dat.leavesExact_idle (dats m 0 c) 4 t (idleAt_4 t (fun h => h1 ((hcond1 t).mp h))) (noFlush_4 t (fun h => h1 ((hcond1 t).mp h)))]
    rw [outsAt_A m c t h0 h1]
    unfold soutA0 soutA1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun_A c (grid0.coords t) _ _ _ _ _ _ _ _ _ _ _ _ _ _ ((hcond0 t).mpr h0) (fun h => h1 ((hcond1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_A c (grid0.coords t) _ _ _ _ _ _ _ _ _ _ _ _ _ _ ((hcond0 t).mpr h0) (fun h => h1 ((hcond1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [liveAt_4 t ((hcond1 t).mpr h1)], after_4]
      rw [outsAt_C m c t h0 h1]
      unfold outC4 soutC0 soutC1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ _ _ (fun h => h0 ((hcond0 t).mp h)) ((hcond1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC0 c _ _ _ _ _ _ _ _ _ _ _ _ _ _ _ _ _ _ _ _ _ _ _)
          · unfold owns; iexists _; isplitr
            swap; · iexact HS1
            ipureintro; exact View.read_writes_of_cover _ _ _ _ _ (scoverC1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC4 c _ _ _ _ _ _ _ _ _ _ _ _ _ _ _ _ _ _ _ _ _ _ _)
    · rw [Dat.leavesExact_idle (dats m 0 c) 4 t (idleAt_4 t (fun h => h1 ((hcond1 t).mp h))) (noFlush_4 t (fun h => h1 ((hcond1 t).mp h)))]
      rw [outsAt_B m c t h0 h1]
      unfold soutB0 soutB1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ _ _ (fun h => h0 ((hcond0 t).mp h)) (fun h => h1 ((hcond1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB0 c _ _ _ _ _ _ _ _ _ _ _ _ _ _ _ _ _ _ _ _ _ _ _)
          · unfold owns; iexists _; isplitr
            swap; · iexact HS1
            ipureintro; exact View.read_writes_of_cover _ _ _ _ _ (scoverB1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KI.Region.lean ====
/-
  The launch: @main as two label reshapes, the kernel region, and the mean over the region's result.

  Between the segments core c holds every unscoped buffer whole at a known valuation, the generator register and what it
  owes (nothing). Entering the region, the points array — read by two windows — is dealt to them one half each; leaving it,
  the two halves make the whole again and the result array stands at what the write-backs left. The run's post names every
  unscoped buffer's final contents; the frame and the value are read off it.
-/
import proofs.«111986_j26731876451185_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

/-! ## The fixed parameters of the launch -/

abbrev EP : Emb (UR sig nD τ) (MT nD τ sig Unit (Elt F) ℕ (UR sig nD τ) ℕ) := emb₁
abbrev Lp : GSem nD τ sig → Finset Unit := fun _ => ∅
abbrev lvp : GSem nD τ sig → Unit → ℕ := fun _ _ => 0
abbrev adm : (p : Fin 1) → (pcfgs (F := F) p).Adm := fun p => (cfgs p).toPCfg_adm
abbrev 𝒱₀ : Variants := Variants.none

/-- Core `c`'s buffers at launch, as a valuation. -/
abbrev Vl (c : Dev nD) : Valuation τ sig (Elt F) := fun b => m (c, b)

/-- What rides beside the buffers: the generator register at some state and the core owing nothing. -/
abbrev Rr (c : Dev nD) : sProp 𝕄 := iprop((∃ r, prngReg c r) ∗ ∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The buffers after the region: the result array at what the write-backs left, every other buffer as the region found it. -/
def W1 (c : Dev nD) : Valuation τ sig (Elt F) :=
  Function.update (V0 m c) (Proc.devRef .tc main_v2) ((dats m 0 c).arrAt 4 cfg0.N)

/-! ## The unscoped buffers and the windows' arrays, one by one -/

theorem unscopedBufs_list (c : Dev nD) (Vv : (b : Ref sig .tc) → Buf (Elt F) ((c : Thread nD τ).loc b)) :
    (unscopedBufs (Ix := Unit) (Name := ℕ) (U := UR sig nD τ) (Lvl := ℕ) c Vv : sProp 𝕄)
      = iprop((((c : Thread nD τ).loc main_arg0) ↦{fullShare} Vv main_arg0) ∗ (((c : Thread nD τ).loc main_arg1) ↦{fullShare} Vv main_arg1)
        ∗ (((c : Thread nD τ).loc main_v0) ↦{fullShare} Vv main_v0) ∗ (((c : Thread nD τ).loc main_v1) ↦{fullShare} Vv main_v1)
        ∗ (((c : Thread nD τ).loc main_v2) ↦{fullShare} Vv main_v2) ∗ (((c : Thread nD τ).loc main_cst) ↦{fullShare} Vv main_cst)
        ∗ (((c : Thread nD τ).loc main_v3) ↦{fullShare} Vv main_v3) ∗ (((c : Thread nD τ).loc main_cst_0) ↦{fullShare} Vv main_cst_0)
        ∗ (((c : Thread nD τ).loc main_v4) ↦{fullShare} Vv main_v4)) := by
  unfold unscopedBufs
  exact bigSep_eq_bigSepL_of_eq [main_arg0, main_arg1, main_v0, main_v1, main_v2, main_cst, main_v3, main_cst_0, main_v4] (by decide) (by decide) _

theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
        ∗ (((c : Thread nD τ).loc main_v0) ↦{fullShare} G 2) ∗ (((c : Thread nD τ).loc main_v1) ↦{fullShare} G 3)
        ∗ (((c : Thread nD τ).loc main_v2) ↦{fullShare} G 4)) := by
  unfold Dat.arrays
  rw [bigSep_W0]
  rw [show (cfg0.win 0).arr.view.set = Finset.univ from (arr_whole0 0).set_eq_univ, show (cfg0.win 2).arr.view.set = Finset.univ from (arr_whole0 2).set_eq_univ,
    show (cfg0.win 3).arr.view.set = Finset.univ from (arr_whole0 3).set_eq_univ, show (cfg0.win 4).arr.view.set = Finset.univ from (arr_whole0 4).set_eq_univ]
  rfl

theorem W1_v2 (c : Dev nD) : W1 m c (Proc.devRef .tc main_v2) = (dats m 0 c).arrAt 4 cfg0.N := by
  unfold W1; exact Function.update_self _ _ _
theorem W1_ne (c : Dev nD) (b : Ref sig .tc) (h : b ≠ main_v2) : W1 m c (Proc.devRef .tc b) = V m c b := by
  unfold W1; exact Function.update_of_ne (StableHlo.devRef_ne_of_ne h) _ _

/-- An input window's array stands after the run where the region found it. -/
theorem arrAt_in_0 (c : Dev nD) : (dats m 0 c).arrAt 0 cfg0.N = V m c main_arg0 := ((dats m 0 c).arrAt_in 0 rfl _).trans (A_eq m c 0)
theorem arrAt_in_1 (c : Dev nD) : (dats m 0 c).arrAt 1 cfg0.N = V m c main_arg0 := ((dats m 0 c).arrAt_in 1 rfl _).trans (A_eq m c 1)
theorem arrAt_in_2 (c : Dev nD) : (dats m 0 c).arrAt 2 cfg0.N = V m c main_v0 := ((dats m 0 c).arrAt_in 2 rfl _).trans (A_eq m c 2)
theorem arrAt_in_3 (c : Dev nD) : (dats m 0 c).arrAt 3 cfg0.N = V m c main_v1 := ((dats m 0 c).arrAt_in 3 rfl _).trans (A_eq m c 3)

/-! ## The segments -/

/-- The two reshapes before the region, over the unscoped buffers. -/
def seg0 : Pipeline.HostSeg (Name := ℕ) (U := UR sig nD τ) (pcfgs (F := F)) defs₀ 𝒱₀ Lp lvp :=
  Pipeline.HostSeg.ofOps _ _ _ _ _ (Pipeline.ucRefs τ sig) hostOps0
    (fun op h => Pipeline.sub_ucRefs op ((List.forall_iff_forall_mem.mp hostOps0_sub) op h)) fresh0 (Vl m) Rr

/-- The sum and the division after it. -/
def seg1 : Pipeline.HostSeg (Name := ℕ) (U := UR sig nD τ) (pcfgs (F := F)) defs₀ 𝒱₀ Lp lvp :=
  Pipeline.HostSeg.ofOps _ _ _ _ _ (Pipeline.ucRefs τ sig) hostOps1
    (fun op h => Pipeline.sub_ucRefs op ((List.forall_iff_forall_mem.mp hostOps1_sub) op h)) fresh1 (W1 m) Rr

/-- The region. -/
def reg0 : Pipeline.RegionSeg (pcfgs (F := F)) adm (dats m) () defs₀ 𝒱₀ Lp lvp 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ Lp lvp 0 fun _ _ => rfl
  pre c := iprop(StableHlo.held (c : Thread nD τ) (Pipeline.ucRefs τ sig) (StableHlo.after hostOps0 (Vl m c)) ∗ Rr c)
  post c := iprop(StableHlo.held (c : Thread nD τ) (Pipeline.ucRefs τ sig) (W1 m c) ∗ Rr c)
  X c := iprop(∃ r, prngReg c r)
  Y c := iprop(∃ r, prngReg c r)
  Z c := iprop((((c : Thread nD τ).loc main_arg1) ↦{fullShare} V m c main_arg1) ∗ (((c : Thread nD τ).loc main_cst) ↦{fullShare} V m c main_cst)
    ∗ (((c : Thread nD τ).loc main_v3) ↦{fullShare} V m c main_v3) ∗ (((c : Thread nD τ).loc main_cst_0) ↦{fullShare} V m c main_cst_0)
    ∗ (((c : Thread nD τ).loc main_v4) ↦{fullShare} V m c main_v4))
  hentry c := by
    rw [show StableHlo.held (c : Thread nD τ) (Pipeline.ucRefs τ sig) (StableHlo.after hostOps0 (Vl m c)) = unscopedBufs c (V m c) from (Pipeline.unscopedBufs_held c _).symm,
      unscopedBufs_list, arrays_list]
    iintro ⟨⟨⟨Ha0, Ha1, Hv0, Hv1, Hv2, Hc, Hv3, Hc0, Hv4⟩, Hp, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Hc]; · iexact Hc
    isplitl [Hv3]; · iexact Hv3
    isplitl [Hc0]; · iexact Hc0
    iexact Hv4
  hin c := by
    refine (show _ ⊢ (Pipeline.ΦA spec0 c : sProp 𝕄) from ?_).trans (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [arrays_list, show StableHlo.held (c : Thread nD τ) (Pipeline.ucRefs τ sig) (W1 m c) = unscopedBufs c (fun b => W1 m c b) from (Pipeline.unscopedBufs_held c _).symm,
      unscopedBufs_list]
    rw [arrAt_in_0, arrAt_in_1, arrAt_in_2, arrAt_in_3, W1_v2, W1_ne m c main_arg0 (by decide), W1_ne m c main_arg1 (by decide), W1_ne m c main_v0 (by decide),
      W1_ne m c main_v1 (by decide), W1_ne m c main_cst (by decide), W1_ne m c main_v3 (by decide), W1_ne m c main_cst_0 (by decide), W1_ne m c main_v4 (by decide)]
    iintro ⟨⟨Hl, Hr, Hv0, Hv1, Hv2⟩, HO, Hp, ⟨Ha1, Hc, Hv3, Hc0, Hv4⟩⟩
    ihave Ha0 := (pointsTo_share (PosShare.mem_left_op_right fullShare)).2 $$ [Hl Hr]
    · isplitl [Hl] <;> iassumption
    imodintro
    isplitr [HO Hp]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    · isplitl [Hp]; · iexact Hp
      unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lp lvp) := [.host (seg0 m), .region (reg0 m), .host (seg1 m)]

/-- The launch element: the pipeline library's at the staging cells. -/
def u₀ : UR sig nD τ := initOf (Pipeline.cells cfgs cellOf_inj) (Pipeline.launchToks cfgs cellOf_inj)

/-- Core `c`'s buffers when @main returns. -/
abbrev Wend (c : Dev nD) : Valuation τ sig (Elt F) := StableHlo.after hostOps1 (W1 m c)

/-- The post of the run: every unscoped buffer of every core at its final contents. -/
def QC : PUnit × MemSt nD τ sig (Elt F) → Prop := fun r =>
  ∀ c : Dev nD, ∀ b ∈ (Finset.univ.filter fun b : Ref sig .tc => ¬ b.isScoped), r.2.mem ((c : Thread nD τ).loc b) = Wend m c (Proc.devRef .tc b)

/-- At the compiled mesh, for any float values, from any memory with zero counters: every weakly fair execution of @main on
    the TensorCores terminates, nothing faulting, and every final state has each unscoped buffer at `Wend`. -/
theorem run_main : θ_run defs (onTc (τ := τ) (main (F := F))) (s₀ m ρ) (QC m) :=
  Pipeline.θ_run_regions_kit (pcfgs (F := F)) adm (dats m) () cellOf_inj EP defs₀ 𝒱₀ Lp lvp m ρ main (segs m)
    (fun c Q => by rw [main_segs adm (dats m) () 𝒱₀ Lp lvp (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (Wend m c) ∗ ∃ r, prngReg c r))
    (hch := ⟨fun _ => .rfl, fun _ => .rfl, fun _ => .rfl, fun c => (show iprop(StableHlo.held (c : Thread nD τ) (Pipeline.ucRefs τ sig) (Wend m c) ∗ Rr c) ⊢ _ from by
      iintro ⟨Hh, Hp, HO⟩
      isplitl [Hh Hp]
      · isplitl [Hh] <;> iassumption
      iexact HO)⟩)
    (hinit := by
      refine Pipeline.initEach Lp lvp fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c b) from (Pipeline.unscopedBufs_held c _).symm]
      unfold unscopedBufs
      iintro ⟨⟨Hh, -⟩, HSI⟩
      imodintro
      iapply (pointsTo_read_all (Finset.univ.filter fun b : Ref sig .tc => ¬ b.isScoped) (fun b => (c : Thread nD τ).loc b) (fun b => Wend m c (Proc.devRef .tc b)) s')
      isplitl [Hh] <;> iassumption)
    (hQ := fun _ h => h)

end Cert.KernelIdeal.Hand

end
-- ==== Proof.KI.End.lean ====
/-
  What the run leaves in the argument arrays and in the result, read off the final valuation.

  Neither the two reshapes before the region nor the sum and the division after it write an argument array, and the region
  only reads them: both end as launched. The result is the division by 4096 of the sum of the region's output array.
-/
import proofs.«111986_j26731876451185_1_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation before the region writes a buffer other than the two reshaped label arrays; -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, StableHlo.unary_writes, StableHlo.binary_writes, StableHlo.nullary_writes, Finset.mem_singleton] <;>
    exact StableHlo.devRef_ne_of_ne ‹_›

/-- and none after it one other than the two constants, the sum and the quotient. -/
theorem not_written1 (b : Ref sig .tc) (hb : b ≠ main_cst ∧ b ≠ main_v3 ∧ b ≠ main_cst_0 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, StableHlo.unary_writes, StableHlo.binary_writes, StableHlo.nullary_writes, Finset.mem_singleton] <;>
    exact StableHlo.devRef_ne_of_ne ‹_›

theorem entry_arg0 (c : Dev nD) : V m c main_arg0 = m ((c : Thread nD τ).loc main_arg0) :=
  StableHlo.after_of_forall_not_mem (b := Proc.devRef .tc main_arg0) hostOps0 (Vl m c) (not_written0 main_arg0 (by decide))
theorem entry_arg1 (c : Dev nD) : V m c main_arg1 = m ((c : Thread nD τ).loc main_arg1) :=
  StableHlo.after_of_forall_not_mem (b := Proc.devRef .tc main_arg1) hostOps0 (Vl m c) (not_written0 main_arg1 (by decide))

/-- The points end as launched; -/
theorem Wend_arg0 (c : Dev nD) : Wend m c (Proc.devRef .tc main_arg0) = m ((c : Thread nD τ).loc main_arg0) :=
  (StableHlo.after_of_forall_not_mem (b := Proc.devRef .tc main_arg0) hostOps1 (W1 m c) (not_written1 main_arg0 (by decide))).trans
    ((W1_ne m c main_arg0 (by decide)).trans (entry_arg0 m c))
/-- so do the labels. -/
theorem Wend_arg1 (c : Dev nD) : Wend m c (Proc.devRef .tc main_arg1) = m ((c : Thread nD τ).loc main_arg1) :=
  (StableHlo.after_of_forall_not_mem (b := Proc.devRef .tc main_arg1) hostOps1 (W1 m c) (not_written1 main_arg1 (by decide))).trans
    ((W1_ne m c main_arg1 (by decide)).trans (entry_arg1 m c))

/-- The result is the quotient by the count of the sum, from zero, of the region's output array. -/
theorem Wend_v4 (c : Dev nD) : Wend m c (Proc.devRef .tc main_v4)
    = Host.divf (Host.reduceAdd ((dats m 0 c).arrAt 4 cfg0.N : (⟨S4096x1, .f32⟩ : BufTy).Contents (Elt F)) (constant S_ .f32 0x00000000#32) reducesTo_S4096x1_S_d0_1 h_S_) (constant S_ .f32 0x45800000#32) := by
  rw [← W1_v2 m c]
  show StableHlo.after hostOps1 (W1 m c) (Proc.devRef .tc main_v4) = _
  after_results

/-- THE FRAME: every weakly fair execution terminates, nothing faulting, both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0 (Finset.mem_filter.mpr ⟨Finset.mem_univ _, by decide⟩)).trans (Wend_arg0 m c),
     (h c main_arg1 (Finset.mem_filter.mpr ⟨Finset.mem_univ _, by decide⟩)).trans (Wend_arg1 m c)⟩) (run_main m ρ)

end Cert.KernelIdeal.Hand

end
-- ==== Proof.KI.Pieces.lean ====
/-
  What the stores of each kind of grid point leave, as the skeleton's payloads.

  At a point of the first column block the body stores −∞ and +∞ into the two scratch buffers, loads them back, and joins
  the tile's row maxima and minima to them. At the other points it joins the tile's extrema to what the buffers held.
  At the last column block it also stores the hinge of the two joined values into the output window. Every store and
  load goes through the whole buffer (the unit rectangle at zero offsets), so a store leaves its payload and a load of a
  just-stored buffer reads that payload back.
-/
import proofs.«111986_j26731876451185_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every store and load of the body are zero on both axes. -/
theorem hz00 : (![0, 0] : Fin 2 → Nat) = fun _ => 0 := funext fun a => by fin_cases a <;> rfl

/-- First column block: the running maximum's buffer ends at the tile's row maxima joined to the stored −∞. -/
theorem soutA0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) :
    soutA0 c i arg2 harg2 arg3 harg3 arg4 harg4 arg5 harg5 arg6 harg6 arg7 harg7 arg8 harg8 hc0 hc1 x0 x1 x2 x3 = k0_pay1 (k0_pay8 x0 x1 x2 x3) (k0_pay4 (F := F)) := by
  unfold soutA0
  rw [View.read_writes_eq_canon _ _ _ (scoverA0 c i arg2 harg2 arg3 harg3 arg4 harg4 arg5 harg5 arg6 harg6 arg7 harg7 arg8 harg8 hc0 hc1 x0 x1 x2 x3)]
  unfold kernelRun_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread,
    View.ld_unit_zero (S := S512x2048) hz00, View.ld_unit_zero (S := S512x1) hz00, View.ld_unit_zero (S := S1x512) hz00]

/-- First column block: the running minimum's buffer ends at the tile's row minima joined to the stored +∞. -/
theorem soutA1_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0 i) (hc1 : ¬cond1 i) (x0 x1 : Vec F S512x2048 .f32) (x2 : Vec F S512x1 .i32) (x3 : Vec F S1x512 .i32) :
    soutA1 c i arg2 harg2 arg3 harg3 arg4 harg4 arg5 harg5 arg6 harg6 arg7 harg7 arg8 harg8 hc0 hc1 x0 x1 x2 x3 = k0_pay2 (k0_pay9 x0 x1 x2 x3) (k0_pay5 (F := F)) := by
  unfold soutA1
  rw [View.read_writes_eq_canon _ _ _ (scoverA1 c i arg2 harg2 arg3 harg3 arg4 harg4 arg5 harg5 arg6 harg6 arg7 harg7 arg8 harg8 hc0 hc1 x0 x1 x2 x3)]
  unfold kernelRun_A
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread,
    View.ld_unit_zero (S := S512x2048) hz00, View.ld_unit_zero (S := S512x1) hz00, View.ld_unit_zero (S := S1x512) hz00]

/-- A middle column block: the tile's row maxima joined to what the running maximum's buffer held. -/
theorem soutB0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) :
    soutB0 c i arg2 harg2 arg3 harg3 arg4 harg4 arg5 harg5 arg6 harg6 arg7 harg7 arg8 harg8 hc0 hc1 x0 x1 x2 x3 xs0 xs1 = k0_pay1 (k0_pay8 x0 x1 x2 x3) xs0 := by
  unfold soutB0
  rw [View.read_writes_eq_canon _ _ _ (scoverB0 c i arg2 harg2 arg3 harg3 arg4 harg4 arg5 harg5 arg6 harg6 arg7 harg7 arg8 harg8 hc0 hc1 x0 x1 x2 x3 xs0 xs1)]
  unfold kernelRun_B
  dsimp only
  try sl_unfold_words
  rw [View.canon_unit_zero (S := S512x1) hz00]
  simp only [View.readAt_eq_ld, harg2.read_unread, harg3.read_unread, harg4.read_unread, harg5.read_unread,
    harg7.read_unread, harg8.read_unread,
    View.ld_unit_zero (S := S512x2048) hz00, View.ld_unit_zero (S := S512x1) hz00, View.ld_unit_zero (S := S1x512) hz00]

/-- A middle column block: the tile's row minima joined to what the running minimum's buffer held. -/
theorem soutB1_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : ¬cond1 i) (x0 x1 : Vec F S512x2048 .f32) (x2 : Vec F S512x1 .i32) (x3 : Vec F S1x512 .i32) (xs0 xs1 : Vec F S512x1 .f32) :
    soutB1 c i arg2 harg2 arg3 harg3 arg4 harg4 arg5 harg5 arg6 harg6 arg7 harg7 arg8 harg8 hc0 hc1 x0 x1 x2 x3 xs0 xs1 = k0_pay2 (k0_pay9 x0 x1 x2 x3) xs1 := by
  unfold soutB1
  rw [View.read_writes_eq_canon _ _ _ (scoverB1 c i arg2 harg2 arg3 harg3 arg4 harg4 arg5 harg5 arg6 harg6 arg7 harg7 arg8 harg8 hc0 hc1 x0 x1 x2 x3 xs0 xs1)]
  unfold kernelRun_B
  dsimp only
  try sl_unfold_words
  rw [View.canon_unit_zero (S := S512x1) hz00]
  simp only [View.readAt_eq_ld, harg2.read_unread, harg3.read_unread, harg4.read_unread, harg5.read_unread,
    harg7.read_unread, harg8.read_unread,
    View.ld_unit_zero (S := S512x2048) hz00, View.ld_unit_zero (S := S512x1) hz00, View.ld_unit_zero (S := S1x512) hz00]

/-- The last column block: the tile's row maxima joined to what the running maximum's buffer held. -/
theorem soutC0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) :
    soutC0 c i arg2 harg2 arg3 harg3 arg4 harg4 arg5 harg5 arg6 harg6 arg7 harg7 arg8 harg8 hc0 hc1 x0 x1 x2 x3 xs0 xs1 = k0_pay1 (k0_pay8 x0 x1 x2 x3) xs0 := by
  unfold soutC0
  rw [View.read_writes_eq_canon _ _ _ (scoverC0 c i arg2 harg2 arg3 harg3 arg4 harg4 arg5 harg5 arg6 harg6 arg7 harg7 arg8 harg8 hc0 hc1 x0 x1 x2 x3 xs0 xs1)]
  unfold kernelRun_C
  dsimp only
  try sl_unfold_words
  rw [View.canon_unit_zero (S := S512x1) hz00]
  simp only [View.readAt_eq_ld, harg2.read_unread, harg3.read_unread, harg4.read_unread, harg5.read_unread,
    harg7.read_unread, harg8.read_unread,
    View.ld_unit_zero (S := S512x2048) hz00, View.ld_unit_zero (S := S512x1) hz00, View.ld_unit_zero (S := S1x512) hz00]

/-- The last column block: the tile's row minima joined to what the running minimum's buffer held. -/
theorem soutC1_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) :
    soutC1 c i arg2 harg2 arg3 harg3 arg4 harg4 arg5 harg5 arg6 harg6 arg7 harg7 arg8 harg8 hc0 hc1 x0 x1 x2 x3 xs0 xs1 = k0_pay2 (k0_pay9 x0 x1 x2 x3) xs1 := by
  unfold soutC1
  rw [View.read_writes_eq_canon _ _ _ (scoverC1 c i arg2 harg2 arg3 harg3 arg4 harg4 arg5 harg5 arg6 harg6 arg7 harg7 arg8 harg8 hc0 hc1 x0 x1 x2 x3 xs0 xs1)]
  unfold kernelRun_C
  dsimp only
  try sl_unfold_words
  rw [View.canon_unit_zero (S := S512x1) hz00]
  simp only [View.readAt_eq_ld, harg2.read_unread, harg3.read_unread, harg4.read_unread, harg5.read_unread,
    harg7.read_unread, harg8.read_unread,
    View.ld_unit_zero (S := S512x2048) hz00, View.ld_unit_zero (S := S512x1) hz00, View.ld_unit_zero (S := S1x512) hz00]

/-- The last column block: the output window's buffer ends at the hinge of the two joined values, each read back from its buffer. -/
theorem outC4_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0 i) (hc1 : cond1 i) (x0 x1 : Vec F S512x2048 .f32) (x2 : Vec F S512x1 .i32) (x3 : Vec F S1x512 .i32) (xs0 xs1 : Vec F S512x1 .f32) :
    outC4 c i arg2 harg2 arg3 harg3 arg4 harg4 arg5 harg5 arg6 harg6 arg7 harg7 arg8 harg8 hc0 hc1 x0 x1 x2 x3 xs0 xs1 = k0_pay3 (k0_pay1 (k0_pay8 x0 x1 x2 x3) xs0) (k0_pay2 (k0_pay9 x0 x1 x2 x3) xs1) := by
  unfold outC4
  rw [View.read_writes_eq_canon _ _ _ (coverC4 c i arg2 harg2 arg3 harg3 arg4 harg4 arg5 harg5 arg6 harg6 arg7 harg7 arg8 harg8 hc0 hc1 x0 x1 x2 x3 xs0 xs1)]
  unfold kernelRun_C
  dsimp only
  try sl_unfold_words
  rw [View.canon_unit_zero (S := S512x1) hz00, View.readCov_unit_zero (S := S512x1) _ hz00,
    View.readCov_unit_zero (S := S512x1) _ hz00]
  simp only [View.readAt_eq_ld, harg2.read_unread, harg3.read_unread, harg4.read_unread, harg5.read_unread,
    harg7.read_unread, harg8.read_unread,
    View.ld_unit_zero (S := S512x2048) hz00, View.ld_unit_zero (S := S512x1) hz00, View.ld_unit_zero (S := S1x512) hz00]

end Cert.KernelIdeal.Hand

end
-- ==== Proof.Spec.lean ====
/-
  The batch-hard triplet loss as ONE function of the two argument arrays, on the extended reals.

  For points x_0 … x_4095 in 2048 coordinates and labels t_0 … t_4095:
    sqn r      = Σ_k x_r,k · x_r,k                     (the squared norm of point r)
    dotp r c   = Σ_k x_r,k · x_c,k                     (the inner product of points r and c)
    dist r c   = sqrt (max (sqn r + sqn c − 2 · dotp r c) ε)
    dpos r     = the largest dist r c over the c with t_c = t_r   (the fold of max from −∞)
    dneg r     = the smallest dist r c over the c with t_c ≠ t_r  (the fold of min from +∞)
    loss r     = max (dpos r − dneg r + margin) 0
    result     = (0 + Σ_r loss r) / 4096
  The float literals stay as the words both programs print; nothing here evaluates one.
-/
import Idealize.ShloMosaic.PureOps.Ideal
import Idealize.ShloMosaic.PureOps.Ideal.Laws
import Idealize.ShloMosaic.Lib.ValueIdx

noncomputable section

open scoped BigOperators

namespace Cert.TripletSpec

open Idealize.ShloMosaic Idealize.ShloMosaic.ValueIdx

/-- The points: 4096 rows of 2048 coordinates. -/
abbrev SX : Shape := ⟨2, ![4096, 2048]⟩
/-- The labels: one 32-bit word per point. -/
abbrev ST : Shape := ⟨1, ![4096]⟩

/-- −∞, +∞, the clamp ε, the factor 2, the margin, zero, and the number of points, as the printed words. -/
def negInf : EReal := Ideal.ofBits .f32 0xFF800000#32
def posInf : EReal := Ideal.ofBits .f32 0x7F800000#32
def eps : EReal := Ideal.ofBits .f32 0x2B8CBCCC#32
def two : EReal := Ideal.ofBits .f32 0x40000000#32
def margin : EReal := Ideal.ofBits .f32 0x3E99999A#32
def zero : EReal := Ideal.ofBits .f32 0x00000000#32
def count : EReal := Ideal.ofBits .f32 0x45800000#32

variable (x : SX.Idx → EReal) (tg : ST.Idx → BitVec 32)

/-- The squared norm of point `r`. -/
def sqn (r : Fin 4096) : EReal := ∑ k : Fin 2048, x (ix2 r k) * x (ix2 r k)
/-- The inner product of points `r` and `c`. -/
def dotp (r c : Fin 4096) : EReal := ∑ k : Fin 2048, x (ix2 r k) * x (ix2 c k)
/-- The clamped distance between points `r` and `c`. -/
def dist (r c : Fin 4096) : EReal := Ideal.sqrt (max (sqn x r + sqn x c - two * dotp x r c) eps)
/-- The distance where the labels agree, −∞ elsewhere; -/
def pos (r c : Fin 4096) : EReal := if tg (ix1 r) = tg (ix1 c) then dist x r c else negInf
/-- and +∞ where they agree, the distance elsewhere. -/
def neg (r c : Fin 4096) : EReal := if tg (ix1 r) = tg (ix1 c) then posInf else dist x r c
/-- The hardest positive of point `r`: the largest distance to a point of its label. -/
def dpos (r : Fin 4096) : EReal := (Finset.univ : Finset (Fin 4096)).fold max negInf (fun c => pos x tg r c)
/-- The hardest negative of point `r`: the smallest distance to a point of another label. -/
def dneg (r : Fin 4096) : EReal := (Finset.univ : Finset (Fin 4096)).fold min posInf (fun c => neg x tg r c)
/-- The hinge of point `r`. -/
def loss (r : Fin 4096) : EReal := max (dpos x tg r - dneg x tg r + margin) zero
/-- The mean hinge. -/
def result : EReal := Ideal.div (zero + ∑ r : Fin 4096, loss x tg r) count

/-! ## The columns in eight tiles of 512 -/

/-- Column `q` of tile `j`. -/
def colOf (j : Fin 8) (q : Fin 512) : Fin 4096 := ⟨512 * j.val + q.val, by have := j.isLt; have := q.isLt; omega⟩

/-- A running fold over the tiles, as a sequential sweep leaves it after tile `n`: the first tile's fold joined to the
    start value, each later tile's fold joined to what the tiles before left. -/
def tileFold (op : EReal → EReal → EReal) [Std.Commutative op] [Std.Associative op] (b : EReal) (g : Fin 8 → Fin 512 → EReal) : ℕ → EReal
  | 0 => op b ((Finset.univ : Finset (Fin 512)).fold op b (g 0))
  | n + 1 => if h : n + 1 < 8 then op (tileFold op b g n) ((Finset.univ : Finset (Fin 512)).fold op b (g ⟨n + 1, h⟩))
      else tileFold op b g n

end Cert.TripletSpec

end
-- ==== Proof.Payloads.lean ====
/-
  The kernel body's values read at an index, on the extended reals.

  One tile of the kernel takes a block of 512 rows (the row block), a block of 512 rows (the column block), the
  row block's labels as a column and the column block's labels as a row, and computes
    • the clamped distance of every row p of the row block to every row q of the column block (`tileDist`),
    • per row p, the largest such distance over the q of p's label (the fold of max from −∞), and
    • per row p, the smallest such distance over the q of another label (the fold of min from +∞);
  the remaining values are the running maximum, the running minimum, the hinge, and the two start values.
  Every float literal stays the word the program prints.
-/
import proofs.«111986_j26731876451185_1_alg».proof.Proof.Gen.KernelIdeal.Skeleton
import proofs.«111986_j26731876451185_1_alg».proof.Proof.Spec
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.KernelIdeal.Payloads

open Idealize.ShloMosaic Idealize.ShloMosaic.ValueIdx Cert.KernelIdeal Cert.KernelIdeal.Gen Cert.TripletSpec

variable [Cert.KernelIdeal.Facts]

/-! ## The start values, the running maximum and minimum, and the hinge -/

/-- The running maximum's start value is −∞ everywhere. -/
theorem pay4_apply (j : S512x1.Idx) : k0_pay4 (F := Ideal) j = negInf := by
  unfold k0_pay4
  rw [shapeCast_self]
  rfl

/-- The running minimum's start value is +∞ everywhere. -/
theorem pay5_apply (j : S512x1.Idx) : k0_pay5 (F := Ideal) j = posInf := by
  unfold k0_pay5
  rw [shapeCast_self]
  rfl

/-- The running maximum joins what was there with the tile's maximum. -/
theorem pay1_apply (v35 : FVec Ideal S512x1 .f32) (v38 : Vec Ideal S512x1 .f32) (j : S512x1.Idx) :
    k0_pay1 (F := Ideal) v35 v38 j = max (v38 j) (v35 j) := by
  unfold k0_pay1
  rw [shapeCast_self]
  rfl

/-- The running minimum joins what was there with the tile's minimum. -/
theorem pay2_apply (v37 : FVec Ideal S512x1 .f32) (v43 : Vec Ideal S512x1 .f32) (j : S512x1.Idx) :
    k0_pay2 (F := Ideal) v37 v43 j = min (v43 j) (v37 j) := by
  unfold k0_pay2
  rw [shapeCast_self]
  rfl

/-- The hinge of the hardest positive against the hardest negative. -/
theorem pay3_apply (v51 v52 : Vec Ideal S512x1 .f32) (j : S512x1.Idx) :
    k0_pay3 (F := Ideal) v51 v52 j = max (v51 j - v52 j + margin) zero := by
  unfold k0_pay3
  rfl

/-! ## Layout operations read at an index: the column forms -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with lane `k` inserted on the dropped axis is `(p, k)`. -/
theorem lift_row {n m : ℕ} (h : (⟨2, ![n, m]⟩ : Shape).Reduces [1] ⟨1, ![n]⟩) (p : Fin n) (k : Fin m) :
    h.lift (ix1 p) k = ix2 p k := by
  funext c
  refine Fin.ext ?_
  refine (h.lift_val (ix1 p) k c).trans ?_
  unfold Shape.Reduces.liftVal
  match c with
  | ⟨0, _⟩ => rfl
  | ⟨1, _⟩ => rfl

end Layout

/-! ## The lane sums and the product of the two blocks -/

/-- A sum over the 2048 lanes of row `p`. -/
theorem rowSum_apply (src : FVec Ideal S512x2048 .f32) (h : S512x2048.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 2048, src (ix2 p k) := by
  refine (Ideal.multiReduction_add_single src 0x00000000#32 h hφ hacc (ix1 p)).trans ?_
  exact Finset.sum_congr rfl fun k _ => congrArg src (lift_row h p k)

/-- The row coordinate of the left operand's index is the result's row. -/
theorem gram_lhs0 (i : S512x512.Idx) (kk : dot_S512x2048_S512x2048_S512x512_1_1_0_0_n_n.contr.Idx) :
    (dot_S512x2048_S512x2048_S512x512_1_1_0_0_n_n.lhsIdx i kk 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl

/-- The row coordinate of the right operand's index is the result's column. -/
theorem gram_rhs0 (i : S512x512.Idx) (kk : dot_S512x2048_S512x2048_S512x512_1_1_0_0_n_n.contr.Idx) :
    (dot_S512x2048_S512x2048_S512x512_1_1_0_0_n_n.rhsIdx i kk 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl

/-- The product of the row block with the transposed column block, into the zero accumulator: entry `(p, q)` is the
    inner product of row `p` of the one with row `q` of the other. -/
theorem gram_apply (a b : FVec Ideal S512x2048 .bf16) (p q : Fin 512) :
    matmul (F := Ideal) dot_S512x2048_S512x2048_S512x512_1_1_0_0_n_n none a b (constant S512x512 .f32 0x00000000#32) (ix2 p q)
      = ∑ k : Fin 2048, a (ix2 p k) * b (ix2 q k) := by
  refine (Ideal.matmul_constant_zero_apply dot_S512x2048_S512x2048_S512x512_1_1_0_0_n_n none a b (ix2 p q)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q)
      ((contrEquiv1 dot_S512x2048_S512x2048_S512x512_1_1_0_0_n_n 2048 rfl rfl).symm k) = ix2 p k := funext fun c => Fin.ext (by
    match c with
    | ⟨0, _⟩ => exact gram_lhs0 _ _
    | ⟨1, _⟩ => exact (dot_S512x2048_S512x2048_S512x512_1_1_0_0_n_n.lhsIdx_val_of_single rfl _ _).trans hk)
  have er : dot_S512x2048_S512x2048_S512x512_1_1_0_0_n_n.rhsIdx (ix2 p q)
      ((contrEquiv1 dot_S512x2048_S512x2048_S512x512_1_1_0_0_n_n 2048 rfl rfl).symm k) = ix2 q k := funext fun c => Fin.ext (by
    match c with
    | ⟨0, _⟩ => exact gram_rhs0 _ _
    | ⟨1, _⟩ => exact (dot_S512x2048_S512x2048_S512x512_1_1_0_0_n_n.rhsIdx_val_of_single rfl _ _).trans hk)
  rw [el, er]

/-! ## The distances of one tile -/

/-- The clamped distance of row `p` of the row block to row `q` of the column block. -/
def tileDist (xr xc : Vec Ideal S512x2048 .f32) (p q : Fin 512) : EReal :=
  Ideal.sqrt (max ((∑ k : Fin 2048, xr (ix2 p k) * xr (ix2 p k)) + (∑ k : Fin 2048, xc (ix2 q k) * xc (ix2 q k))
    - two * (∑ k : Fin 2048, xr (ix2 p k) * xc (ix2 q k))) eps)

/-- The squared norm of row `p`, kept as a column and spread over the tile's columns. -/
theorem sqnCol_apply (x : FVec Ideal S512x2048 .f32) (p q : Fin 512) (h : S512x2048.Reduces [1] S512) (hφ : FKind.Formats .f32)
    (hacc : (0x00000000#32 : BitVec 32) = 0x00000000#32) (hc : S512.ShapeCasts S512x1) (hb : S512x1.Broadcasts S512x512) :
    broadcastTo S512x512 (shapeCast S512x1 (multiReduction (F := Ideal) .add [1] S512 (mulf x x) 0x00000000#32 h hφ hacc) hc) hb (ix2 p q)
      = ∑ k : Fin 2048, x (ix2 p k) * x (ix2 p k) := by
  refine (broadcastTo_a1_ab_apply _ hb p q).trans ?_
  refine (shapeCast_a_a1_apply _ hc p 0).trans ?_
  exact rowSum_apply (mulf x x) h hφ hacc p

/-- The squared norm of row `q`, kept as a row and spread over the tile's rows. -/
theorem sqnRow_apply (x : FVec Ideal S512x2048 .f32) (p q : Fin 512) (h : S512x2048.Reduces [1] S512) (hφ : FKind.Formats .f32)
    (hacc : (0x00000000#32 : BitVec 32) = 0x00000000#32) (hc : S512.ShapeCasts S1x512) (hb : S1x512.Broadcasts S512x512) :
    broadcastTo S512x512 (shapeCast S1x512 (multiReduction (F := Ideal) .add [1] S512 (mulf x x) 0x00000000#32 h hφ hacc) hc) hb (ix2 p q)
      = ∑ k : Fin 2048, x (ix2 q k) * x (ix2 q k) := by
  refine (broadcastTo_1b_ab_apply _ hb p q).trans ?_
  refine (shapeCast_a_1a_apply _ hc 0 q).trans ?_
  exact rowSum_apply (mulf x x) h hφ hacc q

/-- The inner products of the two blocks' rows: narrowing the format changes no extended real. -/
theorem gramT_apply (xr xc : Vec Ideal S512x2048 .f32) (p q : Fin 512) (hlt : FTy.bits .bf16 < FTy.bits .f32) :
    matmul (F := Ideal) dot_S512x2048_S512x2048_S512x512_1_1_0_0_n_n none (truncf .bf16 xr hlt) (truncf .bf16 xc hlt)
        (constant S512x512 .f32 0x00000000#32) (ix2 p q)
      = ∑ k : Fin 2048, xr (ix2 p k) * xc (ix2 q k) :=
  gram_apply (truncf .bf16 xr hlt) (truncf .bf16 xc hlt) p q

/-- The tile's distances, entry by entry. -/
theorem pay6_apply (xr xc : Vec Ideal S512x2048 .f32) (p q : Fin 512) :
    k0_pay6 (F := Ideal) xr xc (ix2 p q) = tileDist xr xc p q := by
  unfold k0_pay6 tileDist
  exact congrArg Ideal.sqrt (congrArg (fun t => max t eps)
    (congr (congrArg HSub.hSub (congr (congrArg HAdd.hAdd (sqnCol_apply xr p q _ _ _ _ _)) (sqnRow_apply xc p q _ _ _ _ _)))
      (congrArg (fun t => two * t) (gramT_apply xr xc p q _))))

/-! ## The label comparison, and the two masked row reductions -/

/-- A select on the comparison word of two 32-bit words is the `if` on their equality. -/
theorem select_cmpi_eq {α : Type} (x y : BitVec 32) (A B : α) :
    Scalar.select (IntOp.cmpi .eq x y) A B = if x = y then A else B := by
  by_cases h : x = y
  · rw [if_pos h, IntOp.cmpi_eq.mpr h]; exact select_one A B
  · rw [if_neg h, eq_zero_of_ne_one (fun hh => h (IntOp.cmpi_eq.mp hh))]; exact select_zero A B

/-- The label mask at `(p, q)` compares row `p`'s label with column `q`'s. -/
theorem pay7_apply (tr : Vec Ideal S512x1 .i32) (tc : Vec Ideal S1x512 .i32) (p q : Fin 512) :
    k0_pay7 (F := Ideal) tr tc (ix2 p q) = IntOp.cmpi .eq (tr (ix2 p (0 : Fin 1))) (tc (ix2 (0 : Fin 1) q)) := by
  unfold k0_pay7
  exact congr (congrArg (IntOp.cmpi .eq) ((broadcastTo_a1_ab_apply _ _ p q).trans (congrFun (shapeCast_self tr _) _)))
    ((broadcastTo_1b_ab_apply _ _ p q).trans (congrFun (shapeCast_self tc _) _))

/-- A maximum over the 512 columns of row `p`, from −∞. -/
theorem rowMax_apply (src : FVec Ideal S512x512 .f32) (h : S512x512.Reduces [1] S512) (hφ : FKind.Formats .f32)
    (hacc : (0xFF800000#32 : BitVec 32) = 0xFF800000#32) (p : Fin 512) :
    multiReduction (F := Ideal) .maximumf [1] S512 src 0xFF800000#32 h hφ hacc (ix1 p)
      = (Finset.univ : Finset (Fin 512)).fold max negInf (fun q => src (ix2 p q)) := by
  refine (Ideal.multiReduction_maximumf_single src 0xFF800000#32 h hφ hacc (ix1 p)).trans ?_
  exact Finset.fold_congr (fun q _ => congrArg src (lift_row h p q))

/-- A minimum over the 512 columns of row `p`, from +∞. -/
theorem rowMin_apply (src : FVec Ideal S512x512 .f32) (h : S512x512.Reduces [1] S512) (hφ : FKind.Formats .f32)
    (hacc : (0x7F800000#32 : BitVec 32) = 0x7F800000#32) (p : Fin 512) :
    multiReduction (F := Ideal) .minimumf [1] S512 src 0x7F800000#32 h hφ hacc (ix1 p)
      = (Finset.univ : Finset (Fin 512)).fold min posInf (fun q => src (ix2 p q)) := by
  refine (multiReduction_minimumf_eq_fold src 0x7F800000#32 h hφ hacc (ix1 p)).trans ?_
  refine (h.fold_filter_drop_single _ _ src (ix1 p)).trans ?_
  exact Finset.fold_congr (fun q _ => congrArg src (lift_row h p q))

/-- The tile's hardest positive of row `p`: the largest distance to a column of `p`'s label, −∞ elsewhere. -/
theorem pay8_apply (xr xc : Vec Ideal S512x2048 .f32) (tr : Vec Ideal S512x1 .i32) (tc : Vec Ideal S1x512 .i32) (p : Fin 512) :
    k0_pay8 (F := Ideal) xr xc tr tc (ix2 p (0 : Fin 1))
      = (Finset.univ : Finset (Fin 512)).fold max negInf
          (fun q => if tr (ix2 p (0 : Fin 1)) = tc (ix2 (0 : Fin 1) q) then tileDist xr xc p q else negInf) := by
  unfold k0_pay8
  refine (shapeCast_a_a1_apply _ _ p 0).trans ?_
  refine (rowMax_apply _ _ _ _ p).trans ?_
  refine Finset.fold_congr (fun q _ => ?_)
  show Scalar.select (k0_pay7 tr tc (ix2 p q)) (k0_pay6 xr xc (ix2 p q)) negInf = _
  rw [pay7_apply, pay6_apply]
  exact select_cmpi_eq _ _ _ _

/-- The tile's hardest negative of row `p`: the smallest distance to a column of another label, +∞ elsewhere. -/
theorem pay9_apply (xr xc : Vec Ideal S512x2048 .f32) (tr : Vec Ideal S512x1 .i32) (tc : Vec Ideal S1x512 .i32) (p : Fin 512) :
    k0_pay9 (F := Ideal) xr xc tr tc (ix2 p (0 : Fin 1))
      = (Finset.univ : Finset (Fin 512)).fold min posInf
          (fun q => if tr (ix2 p (0 : Fin 1)) = tc (ix2 (0 : Fin 1) q) then posInf else tileDist xr xc p q) := by
  unfold k0_pay9
  refine (shapeCast_a_a1_apply _ _ p 0).trans ?_
  refine (rowMin_apply _ _ _ _ p).trans ?_
  refine Finset.fold_congr (fun q _ => ?_)
  show Scalar.select (k0_pay7 tr tc (ix2 p q)) posInf (k0_pay6 xr xc (ix2 p q)) = _
  rw [pay7_apply, pay6_apply]
  exact select_cmpi_eq _ _ _ _

end Cert.KernelIdeal.Payloads

end
-- ==== Proof.KI.Blocks.lean ====
/-
  Each input block of a grid point, read at coordinates, off the launch memory.

  The grid is 8 × 8, swept row-major: point t is row block t / 8 against column block t % 8. The two windows on the points
  read rows 512 · (t / 8) + p and 512 · (t % 8) + q of the array of points; the label windows read the same rows of the
  label vector, through the column [4096, 1] and the row [1, 4096] the two reshapes before the region lay it out as.
  No operation before the region writes either argument, so the region finds them as launched.
-/
import proofs.«111986_j26731876451185_1_alg».proof.Proof.KI.Common
import proofs.«111986_j26731876451185_1_alg».proof.Proof.Payloads
import proofs.«111986_j26731876451185_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Idealize.ShloMosaic.StableHlo
open Cert.KernelIdeal.Payloads

variable (m : (ℓ : Loc nD τ sig) → Buf (Elt Ideal) ℓ)

/-! ## The two arguments, and the rows a point reads -/

/-- The array of points as launched, on core `c`; -/
abbrev xOf (c : Dev nD) : Cert.TripletSpec.SX.Idx → EReal := m ((c : Thread nD τ).loc main_arg0)
/-- and the label vector. -/
abbrev tgOf (c : Dev nD) : Cert.TripletSpec.ST.Idx → BitVec 32 := m ((c : Thread nD τ).loc main_arg1)

/-- Row `p` of point `t`'s row block, as a row of the array. -/
def rowOf (t : Fin cfg0.N) (p : Fin 512) : Fin 4096 :=
  ⟨512 * (t.val / 8) + p.val, by have h : t.val < grid0.N := t.isLt; rw [N_0] at h; have := p.isLt; omega⟩
/-- Row `q` of point `t`'s column block, as a row of the array. -/
def colOfPt (t : Fin cfg0.N) (q : Fin 512) : Fin 4096 :=
  ⟨512 * (t.val % 8) + q.val, by have := q.isLt; omega⟩

/-- The block indices of the five windows at every point: the row block on the windows that follow the row coordinate, the
    column block on those that follow the column coordinate. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-! ## The buffers as the region finds them -/

/-- No operation before the region writes the points: the region finds them as launched. -/
theorem V_arg0 (c : Dev nD) : V m c main_arg0 = m ((c : Thread nD τ).loc main_arg0) := by
  show StableHlo.after hostOps0 (fun b => m (c, b)) (Proc.devRef .tc main_arg0) = _
  after_results

/-- Nor the labels. -/
theorem V_arg1 (c : Dev nD) : V m c main_arg1 = m ((c : Thread nD τ).loc main_arg1) := by
  show StableHlo.after hostOps0 (fun b => m (c, b)) (Proc.devRef .tc main_arg1) = _
  after_results

/-- The label column is the label vector laid out as [4096, 1]; -/
theorem V_v0 (c : Dev nD) :
    (V m c main_v0 : S4096x1.Idx → BitVec 32) = shapeCast S4096x1 (m ((c : Thread nD τ).loc main_arg1)) shapeCasts_S4096_S4096x1 := by
  show StableHlo.after hostOps0 (fun b => m (c, b)) (Proc.devRef .tc main_v0) = _
  after_results
  rfl

/-- and the label row the same vector laid out as [1, 4096]. -/
theorem V_v1 (c : Dev nD) :
    (V m c main_v1 : S1x4096.Idx → BitVec 32) = shapeCast S1x4096 (m ((c : Thread nD τ).loc main_arg1)) shapeCasts_S4096_S1x4096 := by
  show StableHlo.after hostOps0 (fun b => m (c, b)) (Proc.devRef .tc main_v1) = _
  after_results
  rfl

/-! ## The four input blocks at coordinates -/

/-- The row block: row `p`, lane `k`. -/
theorem iblk0_apply (c : Dev nD) (t : Fin cfg0.N) (p : Fin 512) (k : Fin 2048) :
    iblk m c 0 t (ix2 p k) = xOf m c (ix2 (rowOf t p) k) := by
  show V m c main_arg0 (((cfg0.win 0).blk t).view.emb (ix2 p k)) = m ((c : Thread nD τ).loc main_arg0) (ix2 (rowOf t p) k)
  rw [V_arg0]
  refine congrArg _ (funext fun a => Fin.ext ?_)
  obtain ⟨e0, e1, -⟩ := idx_facts t
  match a with
  | ⟨0, _⟩ => show win0_0.index t (0 : Fin 2) * 512 + 1 * p.val = 512 * (t.val / 8) + p.val; omega
  | ⟨1, _⟩ => show win0_0.index t (1 : Fin 2) * 2048 + 1 * k.val = k.val; omega

/-- The column block: row `q`, lane `k`. -/
theorem iblk1_apply (c : Dev nD) (t : Fin cfg0.N) (q : Fin 512) (k : Fin 2048) :
    iblk m c 1 t (ix2 q k) = xOf m c (ix2 (colOfPt t q) k) := by
  show V m c main_arg0 (((cfg0.win 1).blk t).view.emb (ix2 q k)) = m ((c : Thread nD τ).loc main_arg0) (ix2 (colOfPt t q) k)
  rw [V_arg0]
  refine congrArg _ (funext fun a => Fin.ext ?_)
  obtain ⟨-, -, e0, e1, -⟩ := idx_facts t
  match a with
  | ⟨0, _⟩ => show win0_1.index t (0 : Fin 2) * 512 + 1 * q.val = 512 * (t.val % 8) + q.val; omega
  | ⟨1, _⟩ => show win0_1.index t (1 : Fin 2) * 2048 + 1 * k.val = k.val; omega

/-- The row block's labels, a column. -/
theorem iblk2_apply (c : Dev nD) (t : Fin cfg0.N) (p : Fin 512) :
    iblk m c 2 t (ix2 p (0 : Fin 1)) = tgOf m c (ix1 (rowOf t p)) := by
  show (V m c main_v0 : S4096x1.Idx → BitVec 32) (((cfg0.win 2).blk t).view.emb (ix2 p (0 : Fin 1)))
    = m ((c : Thread nD τ).loc main_arg1) (ix1 (rowOf t p))
  rw [V_v0]
  have he : ((cfg0.win 2).blk t).view.emb (ix2 p (0 : Fin 1)) = (ix2 (rowOf t p) (0 : Fin 1) : S4096x1.Idx) := by
    refine funext fun a => Fin.ext ?_
    obtain ⟨-, -, -, -, e0, e1, -⟩ := idx_facts t
    match a with
    | ⟨0, _⟩ => show win0_2.index t (0 : Fin 2) * 512 + 1 * p.val = 512 * (t.val / 8) + p.val; omega
    | ⟨1, _⟩ => show win0_2.index t (1 : Fin 2) * 1 + 1 * 0 = 0; omega
  rw [he]
  exact shapeCast_a_a1_apply _ _ (rowOf t p) 0

/-- The column block's labels, a row. -/
theorem iblk3_apply (c : Dev nD) (t : Fin cfg0.N) (q : Fin 512) :
    iblk m c 3 t (ix2 (0 : Fin 1) q) = tgOf m c (ix1 (colOfPt t q)) := by
  show (V m c main_v1 : S1x4096.Idx → BitVec 32) (((cfg0.win 3).blk t).view.emb (ix2 (0 : Fin 1) q))
    = m ((c : Thread nD τ).loc main_arg1) (ix1 (colOfPt t q))
  rw [V_v1]
  have he : ((cfg0.win 3).blk t).view.emb (ix2 (0 : Fin 1) q) = (ix2 (0 : Fin 1) (colOfPt t q) : S1x4096.Idx) := by
    refine funext fun a => Fin.ext ?_
    obtain ⟨-, -, -, -, -, -, e0, e1, -⟩ := idx_facts t
    match a with
    | ⟨0, _⟩ => show win0_3.index t (0 : Fin 2) * 1 + 1 * 0 = 0; omega
    | ⟨1, _⟩ => show win0_3.index t (1 : Fin 2) * 512 + 1 * q.val = 512 * (t.val % 8) + q.val; omega
  rw [he]
  exact shapeCast_a_1a_apply _ _ 0 (colOfPt t q)

end Cert.KernelIdeal.Hand

end
-- ==== Proof.LibFoldTiles.lean ====
/-
  Folding eight tiles of 512 columns one after the other gives the fold over all 4096 columns.

  The running value after tile n is the join (max, or min) of the start value and of every entry of tiles 0 … n; this is the
  universal property of a join, so no finiteness of the entries is used.
-/
import proofs.«111986_j26731876451185_1_alg».proof.Proof.Spec

namespace Cert.TripletSpec

/-- Every column is column `c % 512` of tile `c / 512`. -/
theorem colOf_div_mod (c : Fin 4096) :
    colOf ⟨c.val / 512, by have := c.isLt; omega⟩ ⟨c.val % 512, Nat.mod_lt _ (by norm_num)⟩ = c := by
  apply Fin.ext
  simp only [colOf]
  exact Nat.div_add_mod c.val 512

/-- The running maximum after tile `n` is below `c` exactly when the start value and every entry of tiles `0 … n` are. -/
theorem tileFold_max_le_iff (b : EReal) (g : Fin 8 → Fin 512 → EReal) (c : EReal) (n : ℕ) :
    tileFold max b g n ≤ c ↔ b ≤ c ∧ ∀ j : Fin 8, j.val ≤ n → ∀ q, g j q ≤ c := by
  induction n with
  | zero =>
    simp only [tileFold, max_le_iff, Finset.fold_max_le, Finset.mem_univ, true_implies]
    constructor
    · rintro ⟨hb, -, hq⟩
      refine ⟨hb, fun j hj q => ?_⟩
      have hj0 : j = 0 := Fin.ext (Nat.le_zero.mp hj)
      subst hj0
      exact hq q
    · rintro ⟨hb, hq⟩
      exact ⟨hb, hb, fun q => hq 0 (le_refl _) q⟩
  | succ n ih =>
    rw [tileFold]
    split_ifs with h
    · rw [max_le_iff, ih, Finset.fold_max_le]
      constructor
      · rintro ⟨⟨hb, hj⟩, -, hq⟩
        refine ⟨hb, fun j hjn q => ?_⟩
        rcases Nat.lt_or_ge j.val (n + 1) with h1 | h1
        · exact hj j (Nat.lt_succ_iff.mp h1) q
        · have hjeq : j = ⟨n + 1, h⟩ := Fin.ext (le_antisymm hjn h1)
          subst hjeq
          exact hq q (Finset.mem_univ _)
      · rintro ⟨hb, hj⟩
        exact ⟨⟨hb, fun j hjn q => hj j (Nat.le_succ_of_le hjn) q⟩, hb,
          fun q _ => hj ⟨n + 1, h⟩ (le_refl _) q⟩
    · rw [ih]
      constructor
      · rintro ⟨hb, hj⟩
        exact ⟨hb, fun j _ q => hj j (by have := j.isLt; omega) q⟩
      · rintro ⟨hb, hj⟩
        exact ⟨hb, fun j hjn q => hj j (Nat.le_succ_of_le hjn) q⟩

/-- The running minimum after tile `n` is above `c` exactly when the start value and every entry of tiles `0 … n` are. -/
theorem le_tileFold_min_iff (b : EReal) (g : Fin 8 → Fin 512 → EReal) (c : EReal) (n : ℕ) :
    c ≤ tileFold min b g n ↔ c ≤ b ∧ ∀ j : Fin 8, j.val ≤ n → ∀ q, c ≤ g j q := by
  induction n with
  | zero =>
    simp only [tileFold, le_min_iff, Finset.le_fold_min, Finset.mem_univ, true_implies]
    constructor
    · rintro ⟨hb, -, hq⟩
      refine ⟨hb, fun j hj q => ?_⟩
      have hj0 : j = 0 := Fin.ext (Nat.le_zero.mp hj)
      subst hj0
      exact hq q
    · rintro ⟨hb, hq⟩
      exact ⟨hb, hb, fun q => hq 0 (le_refl _) q⟩
  | succ n ih =>
    rw [tileFold]
    split_ifs with h
    · rw [le_min_iff, ih, Finset.le_fold_min]
      constructor
      · rintro ⟨⟨hb, hj⟩, -, hq⟩
        refine ⟨hb, fun j hjn q => ?_⟩
        rcases Nat.lt_or_ge j.val (n + 1) with h1 | h1
        · exact hj j (Nat.lt_succ_iff.mp h1) q
        · have hjeq : j = ⟨n + 1, h⟩ := Fin.ext (le_antisymm hjn h1)
          subst hjeq
          exact hq q (Finset.mem_univ _)
      · rintro ⟨hb, hj⟩
        exact ⟨⟨hb, fun j hjn q => hj j (Nat.le_succ_of_le hjn) q⟩, hb,
          fun q _ => hj ⟨n + 1, h⟩ (le_refl _) q⟩
    · rw [ih]
      constructor
      · rintro ⟨hb, hj⟩
        exact ⟨hb, fun j _ q => hj j (by have := j.isLt; omega) q⟩
      · rintro ⟨hb, hj⟩
        exact ⟨hb, fun j hjn q => hj j (Nat.le_succ_of_le hjn) q⟩

/-- The maximum swept over the eight tiles of 512 columns is the maximum over all 4096 columns. -/
theorem tileFold_max (b : EReal) (f : Fin 4096 → EReal) :
    tileFold max b (fun j q => f (colOf j q)) 7 = (Finset.univ : Finset (Fin 4096)).fold max b f := by
  refine eq_of_forall_ge_iff fun c => ?_
  rw [tileFold_max_le_iff, Finset.fold_max_le]
  refine and_congr_right fun _ => ⟨fun hj x _ => ?_, fun hx j _ q => hx _ (Finset.mem_univ _)⟩
  have hx := hj ⟨x.val / 512, by have := x.isLt; omega⟩ (by have := x.isLt; simp only; omega)
    ⟨x.val % 512, Nat.mod_lt _ (by norm_num)⟩
  rwa [colOf_div_mod] at hx

/-- The minimum swept over the eight tiles of 512 columns is the minimum over all 4096 columns. -/
theorem tileFold_min (b : EReal) (f : Fin 4096 → EReal) :
    tileFold min b (fun j q => f (colOf j q)) 7 = (Finset.univ : Finset (Fin 4096)).fold min b f := by
  refine eq_of_forall_le_iff fun c => ?_
  rw [le_tileFold_min_iff, Finset.le_fold_min]
  refine and_congr_right fun _ => ⟨fun hj x _ => ?_, fun hx j _ q => hx _ (Finset.mem_univ _)⟩
  have hx := hj ⟨x.val / 512, by have := x.isLt; omega⟩ (by have := x.isLt; simp only; omega)
    ⟨x.val % 512, Nat.mod_lt _ (by norm_num)⟩
  rwa [colOf_div_mod] at hx

end Cert.TripletSpec
-- ==== Proof.KI.Acc.lean ====
/-
  The sweep over the grid: what the two running extrema and the output window hold after each point.

  Point t is row block t / 8 against column block t % 8. After it, row p of the first scratch buffer holds the largest
  masked distance from array row 512 · (t / 8) + p to the rows of column blocks 0 … t % 8, the second the smallest;
  at the last column block the output window's block holds the row block's hinges, and those eight blocks written back
  make the output array the hinge of every row.
-/
import proofs.«111986_j26731876451185_1_alg».proof.Proof.KI.Body
import proofs.«111986_j26731876451185_1_alg».proof.Proof.KI.Pieces
import proofs.«111986_j26731876451185_1_alg».proof.Proof.KI.Blocks
import proofs.«111986_j26731876451185_1_alg».proof.Proof.Payloads
import proofs.«111986_j26731876451185_1_alg».proof.Proof.Spec
import proofs.«111986_j26731876451185_1_alg».proof.Proof.LibFoldTiles
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Payloads
open Cert.TripletSpec (negInf posInf margin zero tileFold colOf pos neg dpos dneg loss)

variable (m : (ℓ : Loc nD τ sig) → Buf (Elt Ideal) ℓ)

/-! ## The running fold over the tiles, one step at a time -/

/-- After the first tile: the start value joined with the tile's fold. -/
theorem tileFold_zero (op : EReal → EReal → EReal) [Std.Commutative op] [Std.Associative op] (b : EReal) (g : Fin 8 → Fin 512 → EReal) :
    tileFold op b g 0 = op b ((Finset.univ : Finset (Fin 512)).fold op b (g 0)) := by
  rw [tileFold]

/-- After a later tile: what the tiles before left, joined with the tile's fold. -/
theorem tileFold_succ (op : EReal → EReal → EReal) [Std.Commutative op] [Std.Associative op] (b : EReal) (g : Fin 8 → Fin 512 → EReal)
    (k : ℕ) (h : k + 1 < 8) :
    tileFold op b g (k + 1) = op (tileFold op b g k) ((Finset.univ : Finset (Fin 512)).fold op b (g ⟨k + 1, h⟩)) := by
  rw [tileFold]
  exact dif_pos h

/-! ## One tile, on a point's blocks -/

/-- The clamped distance computed on a point's two blocks is the distance between the array's rows they hold. -/
theorem tileDist_blk (c : Dev nD) (t : Fin cfg0.N) (p q : Fin 512) :
    tileDist (iblk m c 0 t) (iblk m c 1 t) p q = Cert.TripletSpec.dist (xOf m c) (rowOf t p) (colOfPt t q) := by
  unfold tileDist Cert.TripletSpec.dist Cert.TripletSpec.sqn Cert.TripletSpec.dotp
  simp only [iblk0_apply m c t, iblk1_apply m c t]

/-! ## The running maximum -/

/-- The tile's largest masked distance of row `p` at point `t`, over the rows of the array the point's column block holds. -/
def tileMax (c : Dev nD) (t : Fin cfg0.N) (p : Fin 512) : EReal :=
  (Finset.univ : Finset (Fin 512)).fold max negInf (fun q => pos (xOf m c) (tgOf m c) (rowOf t p) (colOfPt t q))

/-- The body's masked row reduction on a point's blocks is that largest masked distance. -/
theorem pay8_blk (c : Dev nD) (t : Fin cfg0.N) (p : Fin 512) :
    k0_pay8 (F := Ideal) (iblk m c 0 t) (iblk m c 1 t) (iblk m c 2 t) (iblk m c 3 t) (ix2 p (0 : Fin 1)) = tileMax m c t p := by
  refine (pay8_apply (iblk m c 0 t) (iblk m c 1 t) (iblk m c 2 t) (iblk m c 3 t) p).trans ?_
  unfold tileMax
  refine Finset.fold_congr (fun q _ => ?_)
  rw [iblk2_apply m c t p, iblk3_apply m c t q, tileDist_blk m c t p q]
  rfl

/-- At a first column block the running largest masked distance is reset: the start value joined with the tile's. -/
theorem runMax_first (c : Dev nD) (t : Fin cfg0.N) (h0 : t.val % 8 = 0) (p : Fin 512) :
    (outsAt m c t.val t.isLt).2.1 (ix2 p (0 : Fin 1)) = max negInf (tileMax m c t p) := by
  have h1 : ¬t.val % 8 = 7 := by omega
  refine (congrFun (congrArg (fun r => r.2.1) (outsAt_A m c t h0 h1)) (ix2 p (0 : Fin 1))).trans ?_
  refine (congrFun (soutA0_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t)) (ix2 p (0 : Fin 1))).trans ?_
  refine (pay1_apply _ _ (ix2 p (0 : Fin 1))).trans ?_
  exact congr (congrArg max (pay4_apply (ix2 p (0 : Fin 1)))) (pay8_blk m c t p)

/-- At a middle column block it is what the point before left, joined with the tile's; -/
theorem runMax_mid (c : Dev nD) (t : Fin cfg0.N) (h0 : ¬t.val % 8 = 0) (h1 : ¬t.val % 8 = 7) (p : Fin 512) :
    (outsAt m c t.val t.isLt).2.1 (ix2 p (0 : Fin 1))
      = max ((outsAt m c (t.val - 1) (Nat.lt_of_le_of_lt (Nat.sub_le _ _) t.isLt)).2.1 (ix2 p (0 : Fin 1))) (tileMax m c t p) := by
  refine (congrFun (congrArg (fun r => r.2.1) (outsAt_B m c t h0 h1)) (ix2 p (0 : Fin 1))).trans ?_
  refine (congrFun (soutB0_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1))).trans ?_
  refine (pay1_apply _ _ (ix2 p (0 : Fin 1))).trans ?_
  exact congrArg (max _) (pay8_blk m c t p)

/-- at the last one too; -/
theorem runMax_last (c : Dev nD) (t : Fin cfg0.N) (h0 : ¬t.val % 8 = 0) (h1 : t.val % 8 = 7) (p : Fin 512) :
    (outsAt m c t.val t.isLt).2.1 (ix2 p (0 : Fin 1))
      = max ((outsAt m c (t.val - 1) (Nat.lt_of_le_of_lt (Nat.sub_le _ _) t.isLt)).2.1 (ix2 p (0 : Fin 1))) (tileMax m c t p) := by
  refine (congrFun (congrArg (fun r => r.2.1) (outsAt_C m c t h0 h1)) (ix2 p (0 : Fin 1))).trans ?_
  refine (congrFun (soutC0_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1))).trans ?_
  refine (pay1_apply _ _ (ix2 p (0 : Fin 1))).trans ?_
  exact congrArg (max _) (pay8_blk m c t p)

/-- so at every later column block. -/
theorem runMax_next (c : Dev nD) (t : Fin cfg0.N) (h0 : ¬t.val % 8 = 0) (p : Fin 512) :
    (outsAt m c t.val t.isLt).2.1 (ix2 p (0 : Fin 1))
      = max ((outsAt m c (t.val - 1) (Nat.lt_of_le_of_lt (Nat.sub_le _ _) t.isLt)).2.1 (ix2 p (0 : Fin 1))) (tileMax m c t p) := by
  by_cases h1 : t.val % 8 = 7
  · exact runMax_last m c t h0 h1 p
  · exact runMax_mid m c t h0 h1 p

/-- After the point at position `n` the running largest masked distance of row `p` is the sweep over the column blocks `0 … n % 8`. -/
theorem runMax_nat (c : Dev nD) : ∀ (n : ℕ) (hn : n < cfg0.N) (p : Fin 512),
    (outsAt m c n hn).2.1 (ix2 p (0 : Fin 1))
      = tileFold max negInf (fun j q => pos (xOf m c) (tgOf m c) (rowOf ⟨n, hn⟩ p) (colOf j q)) (n % 8) := by
  intro n
  induction n with
  | zero =>
    intro hn p
    refine (runMax_first m c ⟨0, hn⟩ rfl p).trans ?_
    show _ = tileFold max negInf _ 0
    rw [tileFold_zero]
    refine congrArg (max negInf) ?_
    unfold tileMax
    refine Finset.fold_congr (fun q _ => congrArg _ (Fin.ext ?_))
    simp only [colOf, colOfPt]
    rfl
  | succ n ih =>
    intro hn p
    by_cases h0 : (n + 1) % 8 = 0
    · refine (runMax_first m c ⟨n + 1, hn⟩ h0 p).trans ?_
      rw [h0, tileFold_zero]
      refine congrArg (max negInf) ?_
      unfold tileMax
      refine Finset.fold_congr (fun q _ => congrArg _ (Fin.ext ?_))
      simp only [colOf, colOfPt]
      omega
    · refine (runMax_next m c ⟨n + 1, hn⟩ h0 p).trans ?_
      show max ((outsAt m c n (Nat.lt_of_succ_lt hn)).2.1 (ix2 p (0 : Fin 1))) (tileMax m c ⟨n + 1, hn⟩ p) = _
      rw [ih (Nat.lt_of_succ_lt hn) p]
      obtain ⟨k, hk⟩ : ∃ k, (n + 1) % 8 = k + 1 := ⟨(n + 1) % 8 - 1, by omega⟩
      have hk' : n % 8 = k := by omega
      have hk8 : k + 1 < 8 := by omega
      have hrow : rowOf ⟨n, Nat.lt_of_succ_lt hn⟩ p = rowOf ⟨n + 1, hn⟩ p := Fin.ext (by simp only [rowOf]; omega)
      rw [hk, hk', hrow, tileFold_succ max negInf _ k hk8]
      refine congrArg (max _) ?_
      unfold tileMax
      refine Finset.fold_congr (fun q _ => congrArg _ (Fin.ext ?_))
      simp only [colOf, colOfPt]
      omega

/-! ## The running minimum -/

/-- The tile's smallest masked distance of row `p` at point `t`, over the rows of the array the point's column block holds. -/
def tileMin (c : Dev nD) (t : Fin cfg0.N) (p : Fin 512) : EReal :=
  (Finset.univ : Finset (Fin 512)).fold min posInf (fun q => neg (xOf m c) (tgOf m c) (rowOf t p) (colOfPt t q))

/-- The body's masked row reduction on a point's blocks is that smallest masked distance. -/
theorem pay9_blk (c : Dev nD) (t : Fin cfg0.N) (p : Fin 512) :
    k0_pay9 (F := Ideal) (iblk m c 0 t) (iblk m c 1 t) (iblk m c 2 t) (iblk m c 3 t) (ix2 p (0 : Fin 1)) = tileMin m c t p := by
  refine (pay9_apply (iblk m c 0 t) (iblk m c 1 t) (iblk m c 2 t) (iblk m c 3 t) p).trans ?_
  unfold tileMin
  refine Finset.fold_congr (fun q _ => ?_)
  rw [iblk2_apply m c t p, iblk3_apply m c t q, tileDist_blk m c t p q]
  rfl

/-- At a first column block the running smallest masked distance is reset: the start value joined with the tile's. -/
theorem runMin_first (c : Dev nD) (t : Fin cfg0.N) (h0 : t.val % 8 = 0) (p : Fin 512) :
    (outsAt m c t.val t.isLt).2.2 (ix2 p (0 : Fin 1)) = min posInf (tileMin m c t p) := by
  have h1 : ¬t.val % 8 = 7 := by omega
  refine (congrFun (congrArg (fun r => r.2.2) (outsAt_A m c t h0 h1)) (ix2 p (0 : Fin 1))).trans ?_
  refine (congrFun (soutA1_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk m c 0 t) (iblk m c 1 t) (iblk m c 2 t) (iblk m c 3 t)) (ix2 p (0 : Fin 1))).trans ?_
  refine (pay2_apply _ _ (ix2 p (0 : Fin 1))).trans ?_
  exact congr (congrArg min (pay5_apply (ix2 p (0 : Fin 1)))) (pay9_blk m c t p)

/-- At a middle column block it is what the point before left, joined with the tile's; -/
theorem runMin_mid (c : Dev nD) (t : Fin cfg0.N) (h0 : ¬t.val % 8 = 0) (h1 : ¬t.val % 8 = 7) (p : Fin 512) :
    (outsAt m c t.val t.isLt).2.2 (ix2 p (0 : Fin 1))
      = min ((outsAt m c (t.val - 1) (Nat.lt_of_le_of_lt (Nat.sub_le _ _) t.isLt)).2.2 (ix2 p (0 : Fin 1))) (tileMin m c t p) := by
  refine (congrFun (congrArg (fun r => r.2.2) (outsAt_B m c t h0 h1)) (ix2 p (0 : Fin 1))).trans ?_
  refine (congrFun (soutB1_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1))).trans ?_
  refine (pay2_apply _ _ (ix2 p (0 : Fin 1))).trans ?_
  exact congrArg (min _) (pay9_blk m c t p)

/-- at the last one too; -/
theorem runMin_last (c : Dev nD) (t : Fin cfg0.N) (h0 : ¬t.val % 8 = 0) (h1 : t.val % 8 = 7) (p : Fin 512) :
    (outsAt m c t.val t.isLt).2.2 (ix2 p (0 : Fin 1))
      = min ((outsAt m c (t.val - 1) (Nat.lt_of_le_of_lt (Nat.sub_le _ _) t.isLt)).2.2 (ix2 p (0 : Fin 1))) (tileMin m c t p) := by
  refine (congrFun (congrArg (fun r => r.2.2) (outsAt_C m c t h0 h1)) (ix2 p (0 : Fin 1))).trans ?_
  refine (congrFun (soutC1_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1))).trans ?_
  refine (pay2_apply _ _ (ix2 p (0 : Fin 1))).trans ?_
  exact congrArg (min _) (pay9_blk m c t p)

/-- so at every later column block. -/
theorem runMin_next (c : Dev nD) (t : Fin cfg0.N) (h0 : ¬t.val % 8 = 0) (p : Fin 512) :
    (outsAt m c t.val t.isLt).2.2 (ix2 p (0 : Fin 1))
      = min ((outsAt m c (t.val - 1) (Nat.lt_of_le_of_lt (Nat.sub_le _ _) t.isLt)).2.2 (ix2 p (0 : Fin 1))) (tileMin m c t p) := by
  by_cases h1 : t.val % 8 = 7
  · exact runMin_last m c t h0 h1 p
  · exact runMin_mid m c t h0 h1 p

/-- After the point at position `n` the running smallest masked distance of row `p` is the sweep over the column blocks `0 … n % 8`. -/
theorem runMin_nat (c : Dev nD) : ∀ (n : ℕ) (hn : n < cfg0.N) (p : Fin 512),
    (outsAt m c n hn).2.2 (ix2 p (0 : Fin 1))
      = tileFold min posInf (fun j q => neg (xOf m c) (tgOf m c) (rowOf ⟨n, hn⟩ p) (colOf j q)) (n % 8) := by
  intro n
  induction n with
  | zero =>
    intro hn p
    refine (runMin_first m c ⟨0, hn⟩ rfl p).trans ?_
    show _ = tileFold min posInf _ 0
    rw [tileFold_zero]
    refine congrArg (min posInf) ?_
    unfold tileMin
    refine Finset.fold_congr (fun q _ => congrArg _ (Fin.ext ?_))
    simp only [colOf, colOfPt]
    rfl
  | succ n ih =>
    intro hn p
    by_cases h0 : (n + 1) % 8 = 0
    · refine (runMin_first m c ⟨n + 1, hn⟩ h0 p).trans ?_
      rw [h0, tileFold_zero]
      refine congrArg (min posInf) ?_
      unfold tileMin
      refine Finset.fold_congr (fun q _ => congrArg _ (Fin.ext ?_))
      simp only [colOf, colOfPt]
      omega
    · refine (runMin_next m c ⟨n + 1, hn⟩ h0 p).trans ?_
      show min ((outsAt m c n (Nat.lt_of_succ_lt hn)).2.2 (ix2 p (0 : Fin 1))) (tileMin m c ⟨n + 1, hn⟩ p) = _
      rw [ih (Nat.lt_of_succ_lt hn) p]
      obtain ⟨k, hk⟩ : ∃ k, (n + 1) % 8 = k + 1 := ⟨(n + 1) % 8 - 1, by omega⟩
      have hk' : n % 8 = k := by omega
      have hk8 : k + 1 < 8 := by omega
      have hrow : rowOf ⟨n, Nat.lt_of_succ_lt hn⟩ p = rowOf ⟨n + 1, hn⟩ p := Fin.ext (by simp only [rowOf]; omega)
      rw [hk, hk', hrow, tileFold_succ min posInf _ k hk8]
      refine congrArg (min _) ?_
      unfold tileMin
      refine Finset.fold_congr (fun q _ => congrArg _ (Fin.ext ?_))
      simp only [colOf, colOfPt]
      omega

/-! ## The two running extrema after each point -/

/-- The running maximum after point `t`. -/
theorem acc_max (c : Dev nD) (t : Fin cfg0.N) (p : Fin 512) :
    (outsAt m c t.val t.isLt).2.1 (ix2 p (0 : Fin 1))
      = tileFold max negInf (fun j q => pos (xOf m c) (tgOf m c) (rowOf t p) (colOf j q)) (t.val % 8) :=
  runMax_nat m c t.val t.isLt p

/-- The running minimum after point `t`. -/
theorem acc_min (c : Dev nD) (t : Fin cfg0.N) (p : Fin 512) :
    (outsAt m c t.val t.isLt).2.2 (ix2 p (0 : Fin 1))
      = tileFold min posInf (fun j q => neg (xOf m c) (tgOf m c) (rowOf t p) (colOf j q)) (t.val % 8) :=
  runMin_nat m c t.val t.isLt p

/-! ## The output window at a last column block -/

/-- At a last column block the running maximum is the body's join of what the point before left with the tile's; -/
theorem last_max_eq (c : Dev nD) (t : Fin cfg0.N) (h0 : ¬t.val % 8 = 0) (h1 : t.val % 8 = 7) (p : Fin 512) :
    (outsAt m c t.val t.isLt).2.1 (ix2 p (0 : Fin 1)) = k0_pay1 (F := Ideal) (k0_pay8 (iblk m c 0 t) (iblk m c 1 t) (iblk m c 2 t) (iblk m c 3 t)) (outsAt m c (t.val - 1) (Nat.lt_of_le_of_lt (Nat.sub_le _ _) t.isLt)).2.1 (ix2 p (0 : Fin 1)) :=
  (congrFun (congrArg (fun r => r.2.1) (outsAt_C m c t h0 h1)) (ix2 p (0 : Fin 1))).trans
    (congrFun (soutC0_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1)))

/-- the running minimum likewise; -/
theorem last_min_eq (c : Dev nD) (t : Fin cfg0.N) (h0 : ¬t.val % 8 = 0) (h1 : t.val % 8 = 7) (p : Fin 512) :
    (outsAt m c t.val t.isLt).2.2 (ix2 p (0 : Fin 1)) = k0_pay2 (F := Ideal) (k0_pay9 (iblk m c 0 t) (iblk m c 1 t) (iblk m c 2 t) (iblk m c 3 t)) (outsAt m c (t.val - 1) (Nat.lt_of_le_of_lt (Nat.sub_le _ _) t.isLt)).2.2 (ix2 p (0 : Fin 1)) :=
  (congrFun (congrArg (fun r => r.2.2) (outsAt_C m c t h0 h1)) (ix2 p (0 : Fin 1))).trans
    (congrFun (soutC1_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1)))

/-- and the output window's block is the hinge of those two. -/
theorem last_out_eq (c : Dev nD) (t : Fin cfg0.N) (h0 : ¬t.val % 8 = 0) (h1 : t.val % 8 = 7) (p : Fin 512) :
    (outsAt m c t.val t.isLt).1 (ix2 p (0 : Fin 1))
      = max (k0_pay1 (F := Ideal) (k0_pay8 (iblk m c 0 t) (iblk m c 1 t) (iblk m c 2 t) (iblk m c 3 t)) (outsAt m c (t.val - 1) (Nat.lt_of_le_of_lt (Nat.sub_le _ _) t.isLt)).2.1 (ix2 p (0 : Fin 1))
          - k0_pay2 (F := Ideal) (k0_pay9 (iblk m c 0 t) (iblk m c 1 t) (iblk m c 2 t) (iblk m c 3 t)) (outsAt m c (t.val - 1) (Nat.lt_of_le_of_lt (Nat.sub_le _ _) t.isLt)).2.2 (ix2 p (0 : Fin 1)) + margin) zero := by
  refine (congrFun (congrArg (fun r => r.1) (outsAt_C m c t h0 h1)) (ix2 p (0 : Fin 1))).trans ?_
  refine (congrFun (outC4_eq (F := Ideal) c (grid0.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) (ix2 p (0 : Fin 1))).trans ?_
  exact pay3_apply _ _ (ix2 p (0 : Fin 1))

/-- Over the eight tiles the running maximum is the hardest positive over all 4096 columns; -/
theorem last_max (c : Dev nD) (t : Fin cfg0.N) (h7 : t.val % 8 = 7) (p : Fin 512) :
    (outsAt m c t.val t.isLt).2.1 (ix2 p (0 : Fin 1)) = dpos (xOf m c) (tgOf m c) (rowOf t p) := by
  refine (acc_max m c t p).trans ?_
  rw [h7]
  exact Cert.TripletSpec.tileFold_max negInf (fun cc => pos (xOf m c) (tgOf m c) (rowOf t p) cc)

/-- the running minimum the hardest negative. -/
theorem last_min (c : Dev nD) (t : Fin cfg0.N) (h7 : t.val % 8 = 7) (p : Fin 512) :
    (outsAt m c t.val t.isLt).2.2 (ix2 p (0 : Fin 1)) = dneg (xOf m c) (tgOf m c) (rowOf t p) := by
  refine (acc_min m c t p).trans ?_
  rw [h7]
  exact Cert.TripletSpec.tileFold_min posInf (fun cc => neg (xOf m c) (tgOf m c) (rowOf t p) cc)

/-- At the last column block of a row block the output window's block holds, row by row, the hinge of the row's hardest
    positive against its hardest negative over all 4096 columns. -/
theorem out_last (c : Dev nD) (t : Fin cfg0.N) (h7 : t.val % 8 = 7) (p : Fin 512) :
    (outsAt m c t.val t.isLt).1 (ix2 p (0 : Fin 1)) = loss (xOf m c) (tgOf m c) (rowOf t p) := by
  have h0 : ¬t.val % 8 = 0 := by omega
  refine (last_out_eq m c t h0 h7 p).trans ?_
  exact congrArg (fun z => max (z + margin) zero)
    (congr (congrArg HSub.hSub ((last_max_eq m c t h0 h7 p).symm.trans (last_max m c t h7 p)))
      ((last_min_eq m c t h0 h7 p).symm.trans (last_min m c t h7 p)))

end Cert.KernelIdeal.Hand

end
-- ==== Proof.KI.Final.lean ====
/-
  From the output window's blocks to its array.

  The output window has the block [512, 1] at block index (t / 8, 0) and is written back exactly at the points of the last
  column block (t % 8 = 7). Given that such a point leaves, at row p of its block, the hinge of row 512 · (t / 8) + p, each
  write-back is a row block of the array of row hinges; and every row r of the array is in the block of the point
  8 · (r / 512) + 7. So the array ends holding the row hinges.
-/
import proofs.«111986_j26731876451185_1_alg».proof.Proof.KI.Body
import proofs.«111986_j26731876451185_1_alg».proof.Proof.KI.Blocks
import proofs.«111986_j26731876451185_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ)

/-- The array of row hinges: entry `(r, 0)` is the hinge of row `r`. -/
abbrev lossG (c : Dev nD) : S4096x1.Idx → EReal :=
  fun idx => Cert.TripletSpec.loss (xOf m c) (tgOf m c) ⟨(idx 0).val, (idx 0).isLt⟩

/-- An index of the output array is in point `t`'s block iff each coordinate is in the block's range on its axis. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2).slice (win0_4.rect t)).set ↔ _
  rw [View.set_slice_whole, Rect.mem_set_unit]
  exact Iff.rfl

/-- What a point of the last column block writes back is its row block of the array of row hinges. -/
theorem flushed4_eq (c : Dev nD)
    (hlast : ∀ (t : Fin cfg0.N), t.val % 8 = 7 → ∀ p : Fin 512, (outsAt m c t.val t.isLt).1 (ix2 p (0 : Fin 1)) = Cert.TripletSpec.loss (xOf m c) (tgOf m c) (rowOf t p))
    (t : Fin cfg0.N) (hf : (cfg0.win 4).flush t = true) :
    (dats m 0 c).flushed 4 t = ((cfg0.win 4).blk t).view.read (Elt Ideal) (lossG m c) := by
  have h7 : t.val % 8 = 7 := (flush0_4 t).mp hf
  show (cfg0.win 4).cut (grid0.coords t) ((dats m 0 c).after 4 t) = _
  rw [after_4]
  funext y
  obtain ⟨p, b, rfl⟩ : ∃ (p : Fin 512) (b : Fin 1), y = ix2 p b := ⟨y 0, y 1, eq_ix2 (n0 := 512) (n1 := 1) y⟩
  obtain rfl : b = 0 := Subsingleton.elim _ _
  show (outsAt m c t.val t.isLt).1 (ix2 p (0 : Fin 1)) = lossG m c (((cfg0.win 4).blk t).view.emb (ix2 p (0 : Fin 1)))
  rw [hlast t h7 p]
  have he : ((cfg0.win 4).blk t).view.emb (ix2 p (0 : Fin 1)) = (ix2 (rowOf t p) (0 : Fin 1) : S4096x1.Idx) := by
    refine funext fun a => Fin.ext ?_
    obtain ⟨-, -, -, -, -, -, -, -, e0, e1⟩ := idx_facts t
    match a with
    | ⟨0, _⟩ => show win0_4.index t (0 : Fin 2) * 512 + 1 * p.val = 512 * (t.val / 8) + p.val; omega
    | ⟨1, _⟩ => show win0_4.index t (1 : Fin 2) * 1 + 1 * 0 = 0; omega
  rw [he]

/-- The output array ends holding the row hinges: row `r` is written back by the point of row block `r / 512` at the last
    column block. -/
theorem final4_of (c : Dev nD)
    (hlast : ∀ (t : Fin cfg0.N), t.val % 8 = 7 → ∀ p : Fin 512, (outsAt m c t.val t.isLt).1 (ix2 p (0 : Fin 1)) = Cert.TripletSpec.loss (xOf m c) (tgOf m c) (rowOf t p)) :
    ((dats m 0 c).arrAt 4 cfg0.N : (⟨S4096x1, .f32⟩ : BufTy).Contents (Elt Ideal))
      = fun idx => Cert.TripletSpec.loss (xOf m c) (tgOf m c) ⟨(idx 0).val, (idx 0).isLt⟩ :=
  (dats m 0 c).arrAt_eq_of_cover 4 (lossG m c) (flushed4_eq m c hlast) fun i => by
    have hi0 : (i 0).val < 4096 := (i 0).isLt
    have hi1 : (i 1).val < 1 := (i 1).isLt
    have hN : cfg0.N = 64 := N_0
    let t : Fin cfg0.N := ⟨8 * ((i 0).val / 512) + 7, by rw [hN]; omega⟩
    have ht : t.val = 8 * ((i 0).val / 512) + 7 := rfl
    refine ⟨t, (flush0_4 t).mpr (by rw [ht]; omega), ?_⟩
    rw [mem_blk4]
    obtain ⟨-, -, -, -, -, -, -, -, e0, e1⟩ := idx_facts t
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1 ≤ (i 1).val ∧ (i 1).val < win0_4.index t (1 : Fin 2) * 1 + 1; omega

end Cert.KernelIdeal.Hand

end
-- ==== Proof.KI.Result.lean ====
/-
  The host tail of the kernel program — the mean — on the extended reals.

  After the kernel region the program sums the 4096 × 1 array of row hinges from the word of zero and divides by the word
  of 4096. On the extended reals the sum over the 4096 × 1 index set is the sum over the rows (the second axis has one
  coordinate), so an array holding the row hinges gives the mean hinge of the specification. The float words stay as
  printed; none is evaluated.
-/
import proofs.«111986_j26731876451185_1_alg».proof.Proof.Spec
import proofs.«111986_j26731876451185_1_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Idealize.ShloMosaic Idealize.ShloMosaic.ValueIdx

/-- The array of row hinges: entry `(r, 0)` is the hinge of row `r`. -/
abbrev lossArr (x : Cert.TripletSpec.SX.Idx → EReal) (tg : Cert.TripletSpec.ST.Idx → BitVec 32) :
    (⟨S4096x1, .f32⟩ : BufTy).Contents (Elt Ideal) :=
  fun idx => Cert.TripletSpec.loss x tg ⟨(idx 0).val, (idx 0).isLt⟩

/-- The sum of the row hinges from the word of zero, divided by the word of the count, is the mean hinge — for any proofs
    of the two side facts the reduction takes. -/
theorem mean_eq_of (h : S4096x1.ReducesTo [0, 1] S_) (hu : 0 < S_.numel)
    (x : Cert.TripletSpec.SX.Idx → EReal) (tg : Cert.TripletSpec.ST.Idx → BitVec 32) :
    Host.divf (F := Ideal) (Host.reduceAdd (F := Ideal) (lossArr x tg) (constant (F := Ideal) S_ .f32 0x00000000#32) h hu)
        (constant (F := Ideal) S_ .f32 0x45800000#32)
      = fun _ => Cert.TripletSpec.result x tg := by
  funext j
  show FloatOps.hostDivf (Host.reduceAdd (F := Ideal) (lossArr x tg) (constant (F := Ideal) S_ .f32 0x00000000#32) h hu j)
      (FloatOps.ofBits (F := Ideal) .f32 0x45800000#32) = _
  rw [Ideal.hostDivf_def, Ideal.ofBits_def]
  simp only [Host.reduceAdd, Ideal.hostReduceAdd_def]
  rw [Ideal.hostReduceAdd_total h (fun b => b.elim0), sum_idx2]
  simp only [Fin.sum_univ_one]
  rfl

section

variable [Cert.KernelIdeal.Facts]
open Cert.KernelIdeal.Facts₀

/-- The same with the side facts as the program prints them. -/
theorem mean_eq (x : Cert.TripletSpec.SX.Idx → EReal) (tg : Cert.TripletSpec.ST.Idx → BitVec 32) :
    Host.divf (F := Ideal) (Host.reduceAdd (F := Ideal) ((fun idx => Cert.TripletSpec.loss x tg ⟨(idx 0).val, (idx 0).isLt⟩ : (⟨S4096x1, .f32⟩ : BufTy).Contents (Elt Ideal))) (constant (F := Ideal) S_ .f32 0x00000000#32) reducesTo_S4096x1_S_d0_1 h_S_) (constant (F := Ideal) S_ .f32 0x45800000#32)
      = fun _ => Cert.TripletSpec.result x tg :=
  mean_eq_of _ _ x tg

end

end Cert.KernelIdeal.Hand

end
-- ==== Proof.RefValue.lean ====
/-
  The reference program's value, read one operation at a time, is the batch-hard triplet loss of the specification.

  Each step reads one operation of the reference at an index built from literal coordinates: the squared norms and the
  inner products are sums over the 2048 coordinates, the distance is the clamped square root, the two masked distance
  matrices are the specification's `pos` and `neg`, the two row reductions are folds of max and min over the 4096
  columns, and the mean is the sum of the row hinges divided by the count.
-/
import proofs.«111986_j26731876451185_1_alg».proof.Proof.Gen.ReferenceIdeal.Read
import proofs.«111986_j26731876451185_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TripletSpec

/-! ## Two general facts: a rank-1 index set is its coordinate range, and a select on an equality test is an `if` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Selecting on the one-bit word of an equality test of two words is the `if` on their equality. -/
theorem select_cmpi_eq {α : Type} (a b : BitVec 32) (A B : α) :
    Scalar.select (IntOp.cmpi .eq a b) A B = if a = b then A else B := by
  by_cases h : a = b
  · rw [if_pos h, IntOp.cmpi_eq.mpr h, select_one]
  · rw [if_neg h, eq_zero_of_ne_one (fun h1 => h (IntOp.cmpi_eq.mp h1)), select_zero]

variable (x : (⟨S4096x2048, .f32⟩ : BufTy).Contents (Elt Ideal)) (tg : (⟨S4096, .i32⟩ : BufTy).Contents (Elt Ideal))

/-! ## The distance matrix -/

/-- The row sums of squares are the squared norms: the sum starts from the word of zero, which is 0. -/
theorem v1_at (r : Fin 4096) : val_main_v1 (F := Ideal) x (ix1 r) = sqn x r := by
  rw [val_main_v1_apply, val_main_cst_apply, Ideal.ofBits_def, Ideal.ofBits_zero_f32, zero_add]
  unfold sqn
  refine Finset.sum_congr rfl fun k _ => ?_
  rw [val_main_v0_apply, Ideal.mulf_def]
  have e : idx_main_v1 (ix1 r) k = ix2 r k := funext fun a => by match a with | ⟨0, _⟩ => rfl | ⟨1, _⟩ => rfl
  rw [e]

/-- The product with the transpose is the matrix of inner products. -/
theorem v8_at (r c : Fin 4096) : val_main_v8 (F := Ideal) x (ix2 r c) = dotp x r c := by
  rw [val_main_v8_apply]
  unfold dotp
  refine Finset.sum_congr rfl fun k _ => ?_
  rw [val_main_v7_apply]
  have el : lidx_main_v8 (ix2 r c) k = ix2 r k := funext fun a => by match a with | ⟨0, _⟩ => rfl | ⟨1, _⟩ => rfl
  have er : idx_main_v7 (ridx_main_v8 (ix2 r c) k) = ix2 c k := funext fun a => by match a with | ⟨0, _⟩ => rfl | ⟨1, _⟩ => rfl
  rw [el, er]

/-- The clamped distance: the reference clamps as `max ε d`, the specification as `max d ε`. -/
theorem v13_at (r c : Fin 4096) : val_main_v13 (F := Ideal) x (ix2 r c) = dist x r c := by
  rw [val_main_v13_apply, Ideal.hostUnary_sqrt_def, val_main_v12_apply, Ideal.maximumf_def,
    val_main_call0_v1_apply, val_main_call0_v0_apply, val_main_cst_1_apply, Ideal.ofBits_def,
    val_main_v11_apply, Ideal.subf_def, val_main_v6_apply, Ideal.addf_def, val_main_v4_apply, val_main_v2_apply,
    val_main_v5_apply, val_main_v3_apply, val_main_v10_apply, Ideal.mulf_def, val_main_v9_apply,
    val_main_cst_0_apply, Ideal.ofBits_def, v8_at]
  have e4 : idx_main_v2 (idx_main_v4 (ix2 r c)) = ix1 r := funext fun a => by match a with | ⟨0, _⟩ => rfl
  have e5 : idx_main_v3 (idx_main_v5 (ix2 r c)) = ix1 c := funext fun a => by match a with | ⟨0, _⟩ => rfl
  rw [e4, e5, v1_at, v1_at, max_comm]
  rfl

/-! ## The label mask and the two masked matrices -/

/-- The mask at `(r, c)` tests label `c` against label `r`. -/
theorem v18_at (r c : Fin 4096) :
    val_main_v18 (F := Ideal) tg (ix2 r c) = IntOp.cmpi .eq (tg (ix1 c)) (tg (ix1 r)) := by
  rw [val_main_v18_apply, val_main_v16_apply, val_main_v14_apply, val_main_v17_apply, val_main_v15_apply]
  have e16 : idx_main_v14 (idx_main_v16 (ix2 r c)) = ix1 c := funext fun a => by match a with | ⟨0, _⟩ => rfl
  have e17 : idx_main_v15 (idx_main_v17 (ix2 r c)) = ix1 r := funext fun a => by match a with | ⟨0, _⟩ => rfl
  rw [e16, e17]

/-- The distance where the labels agree and −∞ elsewhere. -/
theorem v19_at (r c : Fin 4096) : val_main_v19 (F := Ideal) x tg (ix2 r c) = pos x tg r c := by
  rw [val_main_v19_apply, v18_at, v13_at, val_main_call1_v0_apply, val_main_cst_2_apply, Ideal.ofBits_def, select_cmpi_eq]
  unfold pos negInf
  by_cases h : tg (ix1 r) = tg (ix1 c)
  · rw [if_pos h, if_pos h.symm]
  · rw [if_neg h, if_neg (fun h' => h h'.symm)]

/-- +∞ where the labels agree and the distance elsewhere. -/
theorem v21_at (r c : Fin 4096) : val_main_v21 (F := Ideal) x tg (ix2 r c) = neg x tg r c := by
  rw [val_main_v21_apply, v18_at, v13_at, val_main_call2_v0_apply, val_main_cst_4_apply, Ideal.ofBits_def, select_cmpi_eq]
  unfold neg posInf
  by_cases h : tg (ix1 r) = tg (ix1 c)
  · rw [if_pos h, if_pos h.symm]
  · rw [if_neg h, if_neg (fun h' => h h'.symm)]

/-! ## The two row reductions -/

/-- Dropping the column axis of the square matrix leaves the rows. -/
theorem red_rows : S4096x4096.Reduces [1] S4096 := by decide

/-- Row `r` with column `k` put back is the index `(r, k)`. -/
theorem lift_at (r k : Fin 4096) : red_rows.lift (ix1 r) k = ix2 r k :=
  funext fun a => Fin.ext (by match a with | ⟨0, _⟩ => rfl | ⟨1, _⟩ => rfl)

/-- The hardest positive: the row maximum is the fold of max from −∞ over the columns. -/
theorem v20_at (r : Fin 4096) : val_main_v20 (F := Ideal) x tg (ix1 r) = dpos x tg r := by
  unfold val_main_v20
  rw [Host.reduce_eq_fold_single FloatOps.maximumf _ _ reducesTo_S4096x4096_S4096_d1 red_rows h_S_ (ix1 r)]
  have hf : (val_main_v19 (F := Ideal) x tg ∘ red_rows.lift (ix1 r)) = fun c : Fin 4096 => pos x tg r c :=
    funext fun (k : Fin 4096) => by
      show val_main_v19 (F := Ideal) x tg (red_rows.lift (ix1 r) k) = pos x tg r k
      rw [lift_at r k, v19_at]
  rw [hf, val_main_cst_3_apply, Ideal.ofBits_def]
  rfl

/-- The hardest negative: the row minimum is the fold of min from +∞ over the columns. -/
theorem v22_at (r : Fin 4096) : val_main_v22 (F := Ideal) x tg (ix1 r) = dneg x tg r := by
  unfold val_main_v22
  rw [Host.reduce_eq_fold_single FloatOps.minimumf _ _ reducesTo_S4096x4096_S4096_d1 red_rows h_S_ (ix1 r)]
  have hf : (val_main_v21 (F := Ideal) x tg ∘ red_rows.lift (ix1 r)) = fun c : Fin 4096 => neg x tg r c :=
    funext fun (k : Fin 4096) => by
      show val_main_v21 (F := Ideal) x tg (red_rows.lift (ix1 r) k) = neg x tg r k
      rw [lift_at r k, v21_at]
  rw [hf, val_main_cst_5_apply, Ideal.ofBits_def]
  rfl

/-! ## The hinge of a row and the mean -/

/-- The hinge of row `r`. -/
theorem v26_at (r : Fin 4096) : val_main_v26 (F := Ideal) x tg (ix1 r) = loss x tg r := by
  rw [val_main_v26_apply, Ideal.maximumf_def, val_main_v25_apply, Ideal.addf_def, val_main_v23_apply, Ideal.subf_def,
    v20_at, v22_at, val_main_v24_apply, val_main_cst_6_apply, val_main_call3_v0_apply, val_main_call3_cst_apply,
    Ideal.ofBits_def, Ideal.ofBits_def]
  rfl

/-- The reference's value is the mean hinge of the specification. -/
theorem ref_eq (x : (⟨Cert.ReferenceIdeal.S4096x2048, .f32⟩ : BufTy).Contents (Elt Ideal))
    (tg : (⟨Cert.ReferenceIdeal.S4096, .i32⟩ : BufTy).Contents (Elt Ideal)) :
    Cert.ReferenceIdeal.Read.val_main_v28 (F := Ideal) x tg = fun _ => Cert.TripletSpec.result x tg := by
  funext i
  rw [val_main_v28_apply, Ideal.hostDivf_def, val_main_v27_apply, val_main_cst_7_apply, val_main_cst_8_apply,
    Ideal.ofBits_def, Ideal.ofBits_def, sum_idx1]
  unfold result
  simp only [v26_at]
  rfl

end Cert.ReferenceIdeal.RefValue

end
-- ==== Proof.Claims.lean ====
/-
  The five claims.

  The three frames: each kernel program by its launch (the label reshapes, the region with its points array dealt to two
  windows, the mean), the reference by its generated run with the result dropped. The idealization rewrote nothing, so it is
  preserved trivially. The value: at the exact instance the kernel's result is the mean hinge of the specification — each row's
  running extrema over the eight column blocks are the extrema over all 4096 columns — and so is the reference's.
-/
import proofs.«111986_j26731876451185_1_alg».proof.Defs
import proofs.«111986_j26731876451185_1_alg».proof.Proof.KB.End
import proofs.«111986_j26731876451185_1_alg».proof.Proof.KI.End
import proofs.«111986_j26731876451185_1_alg».proof.Proof.KI.Acc
import proofs.«111986_j26731876451185_1_alg».proof.Proof.KI.Final
import proofs.«111986_j26731876451185_1_alg».proof.Proof.KI.Result
import proofs.«111986_j26731876451185_1_alg».proof.Proof.RefValue
import proofs.«111986_j26731876451185_1_alg».proof.Proof.Gen.ReferenceIdeal.Run
import proofs.«111986_j26731876451185_1_alg».proof.Proof.Gen.ReferenceIdeal.Read
import proofs.«111986_j26731876451185_1_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.KernelIdeal Cert.KernelIdeal.Hand in
/-- The kernel program's result at the exact instance: the mean hinge of the launch arrays. -/
theorem kernel_value (m : (ℓ : Loc nD τ sig) → Buf (Elt Ideal) ℓ) (c : Dev nD) :
    Wend m c (Proc.devRef .tc main_v4) = fun _ => Cert.TripletSpec.result (xOf m c) (tgOf m c) := by
  rw [Wend_v4, final4_of m c (fun t h7 p => out_last m c t h7 p)]
  exact mean_eq _ _

open Cert.KernelIdeal Cert.KernelIdeal.Hand in
theorem algebraic : Cert.algebraic_KernelIdeal_ReferenceIdeal := by
  intro m ρ m' ρ' _ hagree
  refine ⟨fun c => (fun _ => Cert.TripletSpec.result (xOf m c) (tgOf m c)), ?_, ?_⟩
  · exact (θ_run Cert.KernelIdeal.defs _ _).mono (fun _ h c =>
      ⟨(h c main_v4 (Finset.mem_filter.mpr ⟨Finset.mem_univ _, by decide⟩)).trans (kernel_value m c),
       (h c main_arg0 (Finset.mem_filter.mpr ⟨Finset.mem_univ _, by decide⟩)).trans (Wend_arg0 m c),
       (h c main_arg1 (Finset.mem_filter.mpr ⟨Finset.mem_univ _, by decide⟩)).trans (Wend_arg1 m c)⟩) (run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.RefValue.ref_eq, (hagree c).1, (hagree c).2]
    rfl

end Cert.Proof.Claims

end
-- ==== Proof.lean ====
/-
  A batch-hard triplet loss computed by one pipelined kernel, against its plain array reference.

  The kernel sweeps an 8 × 8 grid of 512 × 512 distance tiles, keeping per row the largest same-label distance and the smallest
  other-label distance seen so far, and writes each row block's hinge at its last column block; the program then averages
  the 4096 hinges. The reference forms the whole 4096 × 4096 distance matrix and takes the two extrema row by row. On the
  extended reals the two agree exactly: the running extrema over the column blocks are the extrema over all columns, and
  every other step is the same arithmetic in the same order.
-/
import proofs.«111986_j26731876451185_1_alg».proof.Defs
import proofs.«111986_j26731876451185_1_alg».proof.Proof.Gen.Kernel
import proofs.«111986_j26731876451185_1_alg».proof.Proof.Gen.KernelIdeal
import proofs.«111986_j26731876451185_1_alg».proof.Proof.Gen.ReferenceIdeal
import proofs.«111986_j26731876451185_1_alg».proof.Proof.Gen.Pre_finite_inputs
import proofs.«111986_j26731876451185_1_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
